-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x64 .f32) (main_arg1 : FVec F S8192x8192 .f32) (main_arg2 : FVec F S64x128 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S1x64 : Shape := ⟨2, ![1, 64]⟩
abbrev S512x64 : Shape := ⟨2, ![512, 64]⟩
abbrev S512x2048 : Shape := ⟨2, ![512, 2048]⟩
abbrev S2048x64 : Shape := ⟨2, ![2048, 64]⟩
abbrev S64x64 : Shape := ⟨2, ![64, 64]⟩

abbrev nBuf : Space → Nat
  | .hbm => 6
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S512x64, .f32⟩
  | .local _ .vmem, ⟨1, _⟩ => ⟨S512x64, .f32⟩
  | .local _ .vmem, ⟨2, _⟩ => ⟨S512x2048, .f32⟩
  | .local _ .vmem, ⟨3, _⟩ => ⟨S512x2048, .f32⟩
  | .local _ .vmem, ⟨4, _⟩ => ⟨S2048x64, .f32⟩
  | .local _ .vmem, ⟨5, _⟩ => ⟨S2048x64, .f32⟩
  | .local _ .vmem, ⟨6, _⟩ => ⟨S64x128, .f32⟩
  | .local _ .vmem, ⟨7, _⟩ => ⟨S1x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64_S1x64 : S64.ShapeCasts S1x64
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x64_0_0 : ∀ a, (![0, 0] : Fin 2 → Nat) a + S64x64.size a ≤ S64x128.size a
  h_S64x64 : 0 < S64x64.numel
  inb_S64x128_S64x64_0_64 : ∀ a, (![0, 64] : Fin 2 → Nat) a + S64x64.size a ≤ S64x128.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  dot_S512x2048_S2048x64_S512x64_1_0_0_1_n_n_wf : DotDims.WF S512x2048 S2048x64 S512x64 [1] [0] [0] [1] [] []
  dot_S512x64_S64x64_S512x64_1_1_0_0_n_n_wf : DotDims.WF S512x64 S64x64 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S8192x64.size a
  hwx0_5 : ∀ i : grid0.Coords, EltTy.bits .f32 = 32 ∨ (Rect.block (s := S8192x64) S512x64.size (cc0_transform_5 i) (hinb0_5 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S64 : Shape := ⟨1, ![64]⟩
abbrev S8192x128 : Shape := ⟨2, ![8192, 128]⟩
abbrev S128x64 : Shape := ⟨2, ![128, 64]⟩
abbrev S1x64 : Shape := ⟨2, ![1, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S8192x64, .f32⟩
  | .hbm, ⟨5, _⟩ => ⟨S8192x128, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  concatenates_S8192x64_S8192x64_S8192x128_d1 : Shape.Concatenates [S8192x64, S8192x64] S8192x128 1
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  dot_S8192x8192_S8192x64_S8192x64_1_0_0_1_n_n_wf : DotDims.WF S8192x8192 S8192x64 S8192x64 [1] [0] [0] [1] [] []
  dot_S8192x128_S128x64_S8192x64_1_0_0_1_n_n_wf : DotDims.WF S8192x128 S128x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.BitsEntry.lean ====
/-
  What the one region of the kernel as printed (its words, no idealization) finds when it is entered, and how its body branches.

  @main is one host line (the bias vector viewed as a one-row matrix) and then the region, so the
  region's arrays hold the argument arrays and that row. The grid is 16 × 4, the second axis `k`
  innermost: point `t` has `k = t mod 4`. The body's three conditionals test `k = 0` (the accumulator
  is started), `k > 0` (it is added to) and `k = 3` (the layer's output block is computed and stored):
  three cases, `k = 0`, `k ∈ {1, 2}`, `k = 3`. The output window is stored only in the last case and is
  written back exactly there; elsewhere it is idle.
-/
import proofs.«128215_g32341103738940_cont_8to1_b_156_19_alg».proof.Proof.Gen.Kernel.Launch
import proofs.«128215_g32341103738940_cont_8to1_b_156_19_alg».proof.Proof.Gen.Kernel.Skeleton
import proofs.«128215_g32341103738940_cont_8to1_b_156_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the one host line before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host line and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes none of the argument arrays. -/
theorem V_main_arg0 (c : Dev nD) : V m c main_arg0 = m ((c : Thread nD τ).loc main_arg0) := by
  dsimp only [V, V0, hostOps0]; after_results; try rfl
theorem V_main_arg1 (c : Dev nD) : V m c main_arg1 = m ((c : Thread nD τ).loc main_arg1) := by
  dsimp only [V, V0, hostOps0]; after_results; try rfl
theorem V_main_arg2 (c : Dev nD) : V m c main_arg2 = m ((c : Thread nD τ).loc main_arg2) := by
  dsimp only [V, V0, hostOps0]; after_results; try rfl
theorem V_main_arg3 (c : Dev nD) : V m c main_arg3 = m ((c : Thread nD τ).loc main_arg3) := by
  dsimp only [V, V0, hostOps0]; after_results; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is
    not fetched its block index has not moved), for any proof data whose array is the entry contents and whose
    body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hkeep : ∀ t, (cfg0.win w).cut (cfg0.grid.coords t) (dat.after w t) = iblk m c w t)
    (hfetched : ∀ t d, (cfg0.win w).fill (cfg0.grid.coords t) d (iblk m c w t) = (dat.after w t))
    (t : Fin cfg0.N) (d) : dat.before w t d = dat.after w t := by
  have hb : ∀ t, dat.blockOf w t = iblk m c w t := fun t => by unfold Dat.blockOf iblk; rw [hA]
  refine (dat.before_in_eq_fetched w hw hlive hclip (fun t => by rw [hkeep, hb]) t d).trans ?_
  unfold Dat.fetched; rw [hb]; exact hfetched t d

/-! ## The body's branch conditions -/

/-- `k = 0`: the first conditional's condition, from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- `k > 0`: the second conditional's. -/
abbrev cond2 (i : grid0.Coords) : Prop := (Scalar.cmpi .ne (Scalar.extui (Scalar.cmpi .sgt (BitVec.ofNat 32 (i 1).val) 0#32)) 0#32) = 1#1
theorem hcond2 : ∀ t : Fin cfg0.N, cond2 (grid0.coords t) ↔ ¬ t.val % 4 = 0 :=
  (by decide +kernel : ∀ t : Fin grid0.N, cond2 (grid0.coords t) ↔ ¬ t.val % 4 = 0)

/-- `k = 3`: the third conditional's. -/
abbrev cond3 (i : grid0.Coords) : Prop := k0_cond3 i = 1#1
theorem hcond3 : ∀ t : Fin cfg0.N, cond3 (grid0.coords t) ↔ t.val % 4 = 3 :=
  (by decide +kernel : ∀ t : Fin grid0.N, cond3 (grid0.coords t) ↔ t.val % 4 = 3)

/-! ## Where the output window is idle -/

theorem idle5 : ∀ t : Fin cfg0.N, ¬ t.val % 4 = 3 → cfg0.idle 5 (grid0.coords t) = true := by decide +kernel
theorem noFlush5 : ∀ t : Fin cfg0.N, ¬ t.val % 4 = 3 → (cfg0.win 5).flush t = false := by decide +kernel
theorem live5 : ∀ t : Fin cfg0.N, t.val % 4 = 3 → cfg0.idle 5 (grid0.coords t) = false := by decide +kernel

/-! ## The staging memrefs and the accumulator -/

abbrev ms0 (t : Fin cfg0.N) : Memref sig .tc .vmem S512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x64 .f32 := win0_5.stage (cfg0.slots t 5)
abbrev hs5 (t : Fin cfg0.N) : (ms5 t).IsWhole := hstage0_5 ((cfg0.slots t 5).cast nbuf0_5)

/-- One staging buffer of the output window, through which its contents are stated. -/
abbrev VO5 : View sig .tc .vmem S512x64 .f32 := (Memref.whole cc0_stg5_0 : Memref sig .tc .vmem S512x64 .f32).view
/-- The accumulator: a whole scoped buffer of the kernel's own, carried from point to point. -/
abbrev scM : Memref sig .tc .vmem S512x64 .f32 := Memref.whole cc0_scratch0
abbrev VS : View sig .tc .vmem S512x64 .f32 := scM.view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frame

end
-- ==== Proof.BitsCaseStart.lean ====
/-
  The body at a point with `k = 0`: the accumulator is started.

  Only the first conditional is taken: the product of the adjacency block with the block of feature rows
  is stored over the whole accumulator, whatever it held. The output window's buffer is not touched.
-/
import proofs.«128215_g32341103738940_cont_8to1_b_156_19_alg».proof.Proof.BitsEntry

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with when `k = 0`, with the proof that on whole staging memrefs — the inputs'
    at their contents, the output's at contents handed back untouched, the accumulator at anything — the body runs to
    the continuation holding the inputs' as they were and the accumulator with those pieces written. -/
noncomputable def runStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : cond1 i) (hc2 : ¬cond2 i) (hc3 : ¬cond3 i)
    (x0 : Vec F S512x64 .f32) (x1 : Vec F S512x2048 .f32) (x2 : Vec F S2048x64 .f32) (x3 : Vec F S64x128 .f32) (x4 : Vec F S1x64 .f32) :
    { LS : List (View.Piece (Elt F) S512x64 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.BitsCaseAdd.lean ====
/-
  The body at a point with `k ∈ {1, 2}`: the accumulator is added to.

  Only the second conditional is taken: the accumulator, at what the point before left in it, is read, the
  product of this point's adjacency block with its block of feature rows is added, and the sum is stored over
  the whole accumulator. The output window's buffer is not touched.
-/
import proofs.«128215_g32341103738940_cont_8to1_b_156_19_alg».proof.Proof.BitsCaseStart

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with when `k ∈ {1, 2}`, from what it held (`xs`). -/
noncomputable def runAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : ¬cond1 i) (hc2 : cond2 i) (hc3 : ¬cond3 i)
    (x0 : Vec F S512x64 .f32) (x1 : Vec F S512x2048 .f32) (x2 : Vec F S2048x64 .f32) (x3 : Vec F S64x128 .f32) (x4 : Vec F S1x64 .f32) (xs : Vec F S512x64 .f32) :
    { LS : List (View.Piece (Elt F) S512x64 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.BitsCaseFinish.lean ====
/-
  The body at a point with `k = 3`: the last block is added and the output block is computed.

  The second and third conditionals are taken: the accumulator is added to as before; then the block of the
  layer's own rows times the left half of the weights, plus the finished accumulator times the right half, plus
  the bias row, is clamped below at zero and stored over the whole output block.
-/
import proofs.«128215_g32341103738940_cont_8to1_b_156_19_alg».proof.Proof.BitsCaseAdd

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the output block and the accumulator end with when `k = 3`, from what the accumulator held (`xs`). -/
noncomputable def runFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : ¬cond1 i) (hc2 : cond2 i) (hc3 : cond3 i)
    (x0 : Vec F S512x64 .f32) (x1 : Vec F S512x2048 .f32) (x2 : Vec F S2048x64 .f32) (x3 : Vec F S64x128 .f32) (x4 : Vec F S1x64 .f32) (xs : Vec F S512x64 .f32) :
    Σ' (L5 : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Frame

end
-- ==== Proof.LibSharedFrame.lean ====
/-
  The frame run of a one-region TensorCore program whose windows may stand on ONE array.

  When two input windows read blocks of the same array, the array's buffer cannot be handed to each
  window at the full share: it is dealt among them. This file states the frame run for that case.
  The certificate supplies, besides the body obligation, HOW the distinct buffers behind the arrays,
  each whole at the full share at the region's entry contents, make the proof data's arrays at entry
  (`hsplit`), and an invariant that starts from, and gives back, the core's scoped buffers that are
  no staging buffer (`hin`, `hout`). The conclusion is the library's frame post: every window's
  array ends at what the proof data compute, every other unscoped buffer as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run from an explicit deal of the arrays' buffers among the windows (`hsplit`): the
    windows need not stand on distinct arrays. The invariant is the certificate's, between the
    scoped buffers that are no staging buffer before the first point and the same after the last. -/
theorem θ_run_frame_of_split
    (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      iexact H)
    (fun c => (show _ ⊢ (scopedRest (cfgs p).spec c : sProp 𝕄) from by iintro ⟨-, H⟩; iexact H).trans (hin c))
    (fun c => (hout c).trans (by
      iintro H
      isplitr
      · iempintro
      iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.BitsFrame.lean ====
/-
  The frame of the kernel as printed (its words, no idealization): what its accumulator and its output block hold point by point, the proof
  data of its one pipeline, the body's obligation at every point, and the run.

  The accumulator after point `t` is defined by recursion on `t`: started afresh when `k = 0`, otherwise what the
  case's run leaves from what the point before left. The output block is computed at the points with `k = 3`
  from the accumulator the point before left; at the other points the output window is idle.
  Two input windows (the layer's own rows; the rows contracted with the adjacency block) stand on ONE array,
  the feature matrix: its buffer is dealt between them, each holding half of the share.
-/
import proofs.«128215_g32341103738940_cont_8to1_b_156_19_alg».proof.Proof.BitsCaseFinish
import proofs.«128215_g32341103738940_cont_8to1_b_156_19_alg».proof.Proof.LibSharedFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : cond1 i) (hc2 : ¬cond2 i) (hc3 : ¬cond3 i) (x0 : Vec F S512x64 .f32) (x1 : Vec F S512x2048 .f32) (x2 : Vec F S2048x64 .f32) (x3 : Vec F S64x128 .f32) (x4 : Vec F S1x64 .f32) (y : S512x64.Idx) :
    ∃ pc ∈ (runStart c i arg2 harg2 arg3 harg3 arg4 harg4 arg5 harg5 arg6 harg6 arg7 harg7 arg8 harg8 hc1 hc2 hc3 x0 x1 x2 x3 x4).1, y ∈ pc.1.set :=
  View.cover_of_tiledL (runStart c i arg2 harg2 arg3 harg3 arg4 harg4 arg5 harg5 arg6 harg6 arg7 harg7 arg8 harg8 hc1 hc2 hc3 x0 x1 x2 x3 x4).1 S512x64.size (by sl_kernel_rfl) y

/-- What the case `k = 0` leaves in the accumulator: its pieces read back. -/
def accStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : cond1 i) (hc2 : ¬cond2 i) (hc3 : ¬cond3 i) (x0 : Vec F S512x64 .f32) (x1 : Vec F S512x2048 .f32) (x2 : Vec F S2048x64 .f32) (x3 : Vec F S64x128 .f32) (x4 : Vec F S1x64 .f32) : Vec F S512x64 .f32 :=
  VS.read (Elt F) (VS.writes (Elt F) VS.junk (runStart c i arg2 harg2 arg3 harg3 arg4 harg4 arg5 harg5 arg6 harg6 arg7 harg7 arg8 harg8 hc1 hc2 hc3 x0 x1 x2 x3 x4).1)

theorem coverAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : ¬cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runAdd c i arg2 harg2 arg3 harg3 arg4 harg4 arg5 harg5 arg6 harg6 arg7 harg7 arg8 harg8 hc1 hc2 hc3 x0 x1 x2 x3 x4 xs).1, y ∈ pc.1.set :=
  View.cover_of_tiledL (runAdd c i arg2 harg2 arg3 harg3 arg4 harg4 arg5 harg5 arg6 harg6 arg7 harg7 arg8 harg8 hc1 hc2 hc3 x0 x1 x2 x3 x4 xs).1 S512x64.size (by sl_kernel_rfl) y

/-- What the case `k ∈ {1, 2}` leaves in the accumulator. -/
def accAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : ¬cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VS.read (Elt F) (VS.writes (Elt F) VS.junk (runAdd c i arg2 harg2 arg3 harg3 arg4 harg4 arg5 harg5 arg6 harg6 arg7 harg7 arg8 harg8 hc1 hc2 hc3 x0 x1 x2 x3 x4 xs).1)

theorem coverFinishAcc (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runFinish c i arg2 harg2 arg3 harg3 arg4 harg4 arg5 harg5 arg6 harg6 arg7 harg7 arg8 harg8 hc1 hc2 hc3 x0 x1 x2 x3 x4 xs).2.1, y ∈ pc.1.set :=
  View.cover_of_tiledL (runFinish c i arg2 harg2 arg3 harg3 arg4 harg4 arg5 harg5 arg6 harg6 arg7 harg7 arg8 harg8 hc1 hc2 hc3 x0 x1 x2 x3 x4 xs).2.1 S512x64.size (by sl_kernel_rfl) y

/-- What the case `k = 3` leaves in the accumulator. -/
def accFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VS.read (Elt F) (VS.writes (Elt F) VS.junk (runFinish c i arg2 harg2 arg3 harg3 arg4 harg4 arg5 harg5 arg6 harg6 arg7 harg7 arg8 harg8 hc1 hc2 hc3 x0 x1 x2 x3 x4 xs).2.1)

theorem coverFinishOut (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runFinish c i arg2 harg2 arg3 harg3 arg4 harg4 arg5 harg5 arg6 harg6 arg7 harg7 arg8 harg8 hc1 hc2 hc3 x0 x1 x2 x3 x4 xs).1, y ∈ pc.1.set :=
  View.cover_of_tiledL (runFinish c i arg2 harg2 arg3 harg3 arg4 harg4 arg5 harg5 arg6 harg6 arg7 harg7 arg8 harg8 hc1 hc2 hc3 x0 x1 x2 x3 x4 xs).1 S512x64.size (by sl_kernel_rfl) y

/-- What the case `k = 3` leaves in the output window's staging buffer. -/
def outFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VO5.read (Elt F) (VO5.writes (Elt F) VO5.junk (runFinish c i arg2 harg2 arg3 harg3 arg4 harg4 arg5 harg5 arg6 harg6 arg7 harg7 arg8 harg8 hc1 hc2 hc3 x0 x1 x2 x3 x4 xs).1)

/-! ## The accumulator and the output block, point by point -/

/-- The accumulator after the point at position `n`. -/
def accAt (c : Dev nD) : (n : ℕ) → n < cfg0.N → Vec F S512x64 .f32
  | 0, hn => (fun (t : Fin cfg0.N) (h0 : t.val % 4 = 0) => accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)) ⟨0, hn⟩ (Nat.zero_mod _)
  | n + 1, hn =>
    if h0 : (n + 1) % 4 = 0 then
      (fun (t : Fin cfg0.N) (h0 : t.val % 4 = 0) => accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)) ⟨n + 1, hn⟩ h0
    else if h3 : (n + 1) % 4 = 3 then
      (fun (t : Fin cfg0.N) (h3 : t.val % 4 = 3) (xs : Vec F S512x64 .f32) => accFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) xs) ⟨n + 1, hn⟩ h3 (accAt c n (Nat.lt_of_succ_lt hn))
    else
      (fun (t : Fin cfg0.N) (h0 : ¬ t.val % 4 = 0) (h3 : ¬ t.val % 4 = 3) (xs : Vec F S512x64 .f32) => accAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) xs) ⟨n + 1, hn⟩ h0 h3 (accAt c n (Nat.lt_of_succ_lt hn))

theorem accAt_start (c : Dev nD) (t : Fin cfg0.N) (h0 : t.val % 4 = 0) :
    accAt m c t.val t.isLt = accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t) := by
  obtain ⟨n, hn⟩ := t
  cases n with
  | zero => exact rfl
  | succ n => exact (dif_pos h0).trans rfl

theorem accAt_add (c : Dev nD) (t : Fin cfg0.N) (h0 : ¬ t.val % 4 = 0) (h3 : ¬ t.val % 4 = 3) :
    accAt m c t.val t.isLt = accAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem accAt_finish (c : Dev nD) (t : Fin cfg0.N) (h3 : t.val % 4 = 3) :
    accAt m c t.val t.isLt = accFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd h3 (show ¬ (0 % 4 = 3) by decide)
  | succ n => exact (dif_neg (by dsimp only at h3; omega)).trans ((dif_pos h3).trans rfl)

/-- What the output window's staging buffer holds after point `t`: at a point with `k = 3` the block computed
    there; elsewhere the window is idle and the value is not consulted. -/
def outAt (c : Dev nD) (t : Fin cfg0.N) : Vec F S512x64 .f32 :=
  if h3 : t.val % 4 = 3 then
    outFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))
  else VO5.read (Elt F) VO5.junk

theorem outAt_finish (c : Dev nD) (t : Fin cfg0.N) (h3 : t.val % 4 = 3) :
    outAt m c t = outFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt)) :=
  dif_pos h3

/-! ## The invariant: the accumulator between points -/

/-- Before the first point the accumulator holds anything; after point `n` it holds `accAt n`. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers that are no staging buffer are the accumulator, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The proof data -/

/-- The arrays as the region finds them; after the body each input's buffer at its block, the output's at
    `outAt`; the invariant the accumulator's; nothing owed; the feature matrix's share halved between its two
    windows, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  (before_in_of m (dats m 0 c) 0 rfl (fun _ => rfl) (fun _ _ _ => rfl) (A_eq m c 0) (fun t => by rw [after0]; try rfl) (fun t d => by rw [after0]; try rfl) t d).trans (after0 m c t)
theorem before1 (c : Dev nD) (t : Fin cfg0.N) (d) : (dats m 0 c).before 1 t d = iblk m c 1 t :=
  (before_in_of m (dats m 0 c) 1 rfl (fun _ => rfl) (fun _ _ _ => rfl) (A_eq m c 1) (fun t => by rw [after1]; try rfl) (fun t d => by rw [after1]; try rfl) t d).trans (after1 m c t)
theorem before2 (c : Dev nD) (t : Fin cfg0.N) (d) : (dats m 0 c).before 2 t d = iblk m c 2 t :=
  (before_in_of m (dats m 0 c) 2 rfl (fun _ => rfl) (fun _ _ _ => rfl) (A_eq m c 2) (fun t => by rw [after2]; try rfl) (fun t d => by rw [after2]; try rfl) t d).trans (after2 m c t)
theorem before3 (c : Dev nD) (t : Fin cfg0.N) (d) : (dats m 0 c).before 3 t d = iblk m c 3 t :=
  (before_in_of m (dats m 0 c) 3 rfl (fun _ => rfl) (fun _ _ _ => rfl) (A_eq m c 3) (fun t => by rw [after3]; try rfl) (fun t d => by rw [after3]; try rfl) t d).trans (after3 m c t)
theorem before4 (c : Dev nD) (t : Fin cfg0.N) (d) : (dats m 0 c).before 4 t d = iblk m c 4 t :=
  (before_in_of m (dats m 0 c) 4 rfl (fun _ => rfl) (fun _ _ _ => rfl) (A_eq m c 4) (fun t => by rw [after4]; try rfl) (fun t d => by rw [after4]; try rfl) t d).trans (after4 m c t)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point: the inputs' buffers hold their blocks; `k` decides the case; the invariant hands the
    body the accumulator at what the point before left (at anything when `k = 0`) and takes it back at this
    point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 64 := lt_of_lt_of_eq t.isLt (show cfg0.N = 64 from N_0)
  by_cases h0 : t.val % 4 = 0
  · rw [Dat.leavesExact_idle (dats m 0 c) 5 t (idle5 t (by omega)) (noFlush5 t (by omega))]
    rw [accAt_start m c t h0]
    unfold accStart; (try dsimp only)
    have hrun := (runStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)).2
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (coverStart c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (coverStart c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dats m 0 c).leavesExact 5 t = owns (c : Thread nD τ) (ms5 t) fullShare ((dats m 0 c).after 5 t) from by
        unfold Dat.leavesExact; rw [live5 t h3], after5, outAt_finish m c t h3]
      rw [accAt_finish m c t h3]
      unfold outFinish accFinish; (try dsimp only)
      have hrun := (runFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))).2.2
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS]
      · unfold owns; iexists _; isplitr
        swap; · iexact HS
        ipureintro; exact View.read_writes_of_cover _ _ _ _ _ (coverFinishAcc c _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFinishOut c _ _ _ _ _ _ _ _ _ _ _ _ _ _ _ _ _ _ _ _ _ _ _ _)
    · rw [Dat.leavesExact_idle (dats m 0 c) 5 t (idle5 t h3) (noFlush5 t h3)]
      rw [accAt_add m c t h0 h3]
      unfold accAdd; (try dsimp only)
      have hrun := (runAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (accAt m c (t.val - 1) (Nat.lt_of_le_of_lt (Nat.sub_le _ _) t.isLt))).2
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (coverAdd c _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the feature matrix dealt between its two windows -/

theorem share0 (c : Dev nD) : (dats m 0 c).share 0 = fullShare.left := rfl
theorem share1 (c : Dev nD) : (dats m 0 c).share 1 = fullShare := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The distinct buffers behind the windows' arrays, one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_call0_v0 ∗ Φ main_v0) :=
  bigSep_eq_bigSepL_of_eq [main_arg0, main_arg1, main_arg2, main_call0_v0, main_v0] (by decide) (by decide) Φ

/-- The five distinct buffers behind the six windows' arrays, each whole at the full share, make the six arrays:
    the feature matrix's buffer splits into its two halves. -/
theorem hsplit (c : Dev nD) :
    (Pipeline.arrBufs spec0 c (V m c) : sProp 𝕄) ⊢ (dats m 0 c).arrays ((dats m 0 c).arrAt · 0) := by
  rw [show (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) from by
    unfold Dat.arrays
    exact bigSep_congr fun w _ => by rw [(arr_whole0 w).set_eq_univ]; rfl]
  unfold Pipeline.arrBufs
  rw [bigSep_W0, bigSep_arrs]
  rw [share0, share1, share2, share3, share4, share5]
  iintro ⟨H0, H1, H2, H3, H4⟩
  ihave H0' := (pointsTo_share (PosShare.mem_left_op_right fullShare)).1 $$ H0
  icases H0' with ⟨Ha, Hb⟩
  isplitl [Ha]; · iexact Ha
  isplitl [H1]; · iexact H1
  isplitl [Hb]; · iexact Hb
  isplitl [H2]; · iexact H2
  isplitl [H3]; · iexact H3
  iexact H4

/-! ## The run -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, rest_eq]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest_eq]
  iintro HS
  iexists _; iexact HS

set_option backward.isDefEq.respectTransparency.types false in
/-- Every weakly fair execution of @main terminates, and in every final state each array of the pipeline holds what
    the library computes from the proof data, every other unscoped buffer what the region found. -/
theorem run_main : θ_run defs (onTc (τ := τ) (main (F := F))) (s₀ m ρ) (Pipeline.FramePost cfgs (dats m) 0 (V m)) :=
  Pipeline.θ_run_frame_of_split cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).2 main_arg3 (by decide)).trans (V_main_arg3 m c)⟩) (run_main m ρ)

end Cert.Kernel.Frame

end
-- ==== Proof.IdealEntry.lean ====
/-
  What the one region of the idealized kernel finds when it is entered, and how its body branches.

  @main is one host line (the bias vector viewed as a one-row matrix) and then the region, so the
  region's arrays hold the argument arrays and that row. The grid is 16 × 4, the second axis `k`
  innermost: point `t` has `k = t mod 4`. The body's three conditionals test `k = 0` (the accumulator
  is started), `k > 0` (it is added to) and `k = 3` (the layer's output block is computed and stored):
  three cases, `k = 0`, `k ∈ {1, 2}`, `k = 3`. The output window is stored only in the last case and is
  written back exactly there; elsewhere it is idle.
-/
import proofs.«128215_g32341103738940_cont_8to1_b_156_19_alg».proof.Proof.Gen.KernelIdeal.Launch
import proofs.«128215_g32341103738940_cont_8to1_b_156_19_alg».proof.Proof.Gen.KernelIdeal.Skeleton
import proofs.«128215_g32341103738940_cont_8to1_b_156_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the one host line before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host line and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes none of the argument arrays. -/
theorem V_main_arg0 (c : Dev nD) : V m c main_arg0 = m ((c : Thread nD τ).loc main_arg0) := by
  dsimp only [V, V0, hostOps0]; after_results; try rfl
theorem V_main_arg1 (c : Dev nD) : V m c main_arg1 = m ((c : Thread nD τ).loc main_arg1) := by
  dsimp only [V, V0, hostOps0]; after_results; try rfl
theorem V_main_arg2 (c : Dev nD) : V m c main_arg2 = m ((c : Thread nD τ).loc main_arg2) := by
  dsimp only [V, V0, hostOps0]; after_results; try rfl
theorem V_main_arg3 (c : Dev nD) : V m c main_arg3 = m ((c : Thread nD τ).loc main_arg3) := by
  dsimp only [V, V0, hostOps0]; after_results; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is
    not fetched its block index has not moved), for any proof data whose array is the entry contents and whose
    body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hkeep : ∀ t, (cfg0.win w).cut (cfg0.grid.coords t) (dat.after w t) = iblk m c w t)
    (hfetched : ∀ t d, (cfg0.win w).fill (cfg0.grid.coords t) d (iblk m c w t) = (dat.after w t))
    (t : Fin cfg0.N) (d) : dat.before w t d = dat.after w t := by
  have hb : ∀ t, dat.blockOf w t = iblk m c w t := fun t => by unfold Dat.blockOf iblk; rw [hA]
  refine (dat.before_in_eq_fetched w hw hlive hclip (fun t => by rw [hkeep, hb]) t d).trans ?_
  unfold Dat.fetched; rw [hb]; exact hfetched t d

/-! ## The body's branch conditions -/

/-- `k = 0`: the first conditional's condition, from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- `k > 0`: the second conditional's. -/
abbrev cond2 (i : grid0.Coords) : Prop := (Scalar.cmpi .ne (Scalar.extui (Scalar.cmpi .sgt (BitVec.ofNat 32 (i 1).val) 0#32)) 0#32) = 1#1
theorem hcond2 : ∀ t : Fin cfg0.N, cond2 (grid0.coords t) ↔ ¬ t.val % 4 = 0 :=
  (by decide +kernel : ∀ t : Fin grid0.N, cond2 (grid0.coords t) ↔ ¬ t.val % 4 = 0)

/-- `k = 3`: the third conditional's. -/
abbrev cond3 (i : grid0.Coords) : Prop := k0_cond3 i = 1#1
theorem hcond3 : ∀ t : Fin cfg0.N, cond3 (grid0.coords t) ↔ t.val % 4 = 3 :=
  (by decide +kernel : ∀ t : Fin grid0.N, cond3 (grid0.coords t) ↔ t.val % 4 = 3)

/-! ## Where the output window is idle -/

theorem idle5 : ∀ t : Fin cfg0.N, ¬ t.val % 4 = 3 → cfg0.idle 5 (grid0.coords t) = true := by decide +kernel
theorem noFlush5 : ∀ t : Fin cfg0.N, ¬ t.val % 4 = 3 → (cfg0.win 5).flush t = false := by decide +kernel
theorem live5 : ∀ t : Fin cfg0.N, t.val % 4 = 3 → cfg0.idle 5 (grid0.coords t) = false := by decide +kernel

/-! ## The staging memrefs and the accumulator -/

abbrev ms0 (t : Fin cfg0.N) : Memref sig .tc .vmem S512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x64 .f32 := win0_5.stage (cfg0.slots t 5)
abbrev hs5 (t : Fin cfg0.N) : (ms5 t).IsWhole := hstage0_5 ((cfg0.slots t 5).cast nbuf0_5)

/-- One staging buffer of the output window, through which its contents are stated. -/
abbrev VO5 : View sig .tc .vmem S512x64 .f32 := (Memref.whole cc0_stg5_0 : Memref sig .tc .vmem S512x64 .f32).view
/-- The accumulator: a whole scoped buffer of the kernel's own, carried from point to point. -/
abbrev scM : Memref sig .tc .vmem S512x64 .f32 := Memref.whole cc0_scratch0
abbrev VS : View sig .tc .vmem S512x64 .f32 := scM.view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frame

end
-- ==== Proof.IdealCaseStart.lean ====
/-
  The body at a point with `k = 0`: the accumulator is started.

  Only the first conditional is taken: the product of the adjacency block with the block of feature rows
  is stored over the whole accumulator, whatever it held. The output window's buffer is not touched.
-/
import proofs.«128215_g32341103738940_cont_8to1_b_156_19_alg».proof.Proof.IdealEntry

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with when `k = 0`, with the proof that on whole staging memrefs — the inputs'
    at their contents, the output's at contents handed back untouched, the accumulator at anything — the body runs to
    the continuation holding the inputs' as they were and the accumulator with those pieces written. -/
noncomputable def runStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : cond1 i) (hc2 : ¬cond2 i) (hc3 : ¬cond3 i)
    (x0 : Vec F S512x64 .f32) (x1 : Vec F S512x2048 .f32) (x2 : Vec F S2048x64 .f32) (x3 : Vec F S64x128 .f32) (x4 : Vec F S1x64 .f32) :
    { LS : List (View.Piece (Elt F) S512x64 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.IdealCaseAdd.lean ====
/-
  The body at a point with `k ∈ {1, 2}`: the accumulator is added to.

  Only the second conditional is taken: the accumulator, at what the point before left in it, is read, the
  product of this point's adjacency block with its block of feature rows is added, and the sum is stored over
  the whole accumulator. The output window's buffer is not touched.
-/
import proofs.«128215_g32341103738940_cont_8to1_b_156_19_alg».proof.Proof.IdealCaseStart

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the accumulator ends with when `k ∈ {1, 2}`, from what it held (`xs`). -/
noncomputable def runAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : ¬cond1 i) (hc2 : cond2 i) (hc3 : ¬cond3 i)
    (x0 : Vec F S512x64 .f32) (x1 : Vec F S512x2048 .f32) (x2 : Vec F S2048x64 .f32) (x3 : Vec F S64x128 .f32) (x4 : Vec F S1x64 .f32) (xs : Vec F S512x64 .f32) :
    { LS : List (View.Piece (Elt F) S512x64 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.IdealCaseFinish.lean ====
/-
  The body at a point with `k = 3`: the last block is added and the output block is computed.

  The second and third conditionals are taken: the accumulator is added to as before; then the block of the
  layer's own rows times the left half of the weights, plus the finished accumulator times the right half, plus
  the bias row, is clamped below at zero and stored over the whole output block.
-/
import proofs.«128215_g32341103738940_cont_8to1_b_156_19_alg».proof.Proof.IdealCaseAdd

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the output block and the accumulator end with when `k = 3`, from what the accumulator held (`xs`). -/
noncomputable def runFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole)
    (hc1 : ¬cond1 i) (hc2 : cond2 i) (hc3 : cond3 i)
    (x0 : Vec F S512x64 .f32) (x1 : Vec F S512x2048 .f32) (x2 : Vec F S2048x64 .f32) (x3 : Vec F S64x128 .f32) (x4 : Vec F S1x64 .f32) (xs : Vec F S512x64 .f32) :
    Σ' (L5 : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Frame

end
-- ==== Proof.IdealFrame.lean ====
/-
  The frame of the idealized kernel: what its accumulator and its output block hold point by point, the proof
  data of its one pipeline, the body's obligation at every point, and the run.

  The accumulator after point `t` is defined by recursion on `t`: started afresh when `k = 0`, otherwise what the
  case's run leaves from what the point before left. The output block is computed at the points with `k = 3`
  from the accumulator the point before left; at the other points the output window is idle.
  Two input windows (the layer's own rows; the rows contracted with the adjacency block) stand on ONE array,
  the feature matrix: its buffer is dealt between them, each holding half of the share.
-/
import proofs.«128215_g32341103738940_cont_8to1_b_156_19_alg».proof.Proof.IdealCaseFinish
import proofs.«128215_g32341103738940_cont_8to1_b_156_19_alg».proof.Proof.LibSharedFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : cond1 i) (hc2 : ¬cond2 i) (hc3 : ¬cond3 i) (x0 : Vec F S512x64 .f32) (x1 : Vec F S512x2048 .f32) (x2 : Vec F S2048x64 .f32) (x3 : Vec F S64x128 .f32) (x4 : Vec F S1x64 .f32) (y : S512x64.Idx) :
    ∃ pc ∈ (runStart c i arg2 harg2 arg3 harg3 arg4 harg4 arg5 harg5 arg6 harg6 arg7 harg7 arg8 harg8 hc1 hc2 hc3 x0 x1 x2 x3 x4).1, y ∈ pc.1.set :=
  View.cover_of_tiledL (runStart c i arg2 harg2 arg3 harg3 arg4 harg4 arg5 harg5 arg6 harg6 arg7 harg7 arg8 harg8 hc1 hc2 hc3 x0 x1 x2 x3 x4).1 S512x64.size (by sl_kernel_rfl) y

/-- What the case `k = 0` leaves in the accumulator: its pieces read back. -/
def accStart (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : cond1 i) (hc2 : ¬cond2 i) (hc3 : ¬cond3 i) (x0 : Vec F S512x64 .f32) (x1 : Vec F S512x2048 .f32) (x2 : Vec F S2048x64 .f32) (x3 : Vec F S64x128 .f32) (x4 : Vec F S1x64 .f32) : Vec F S512x64 .f32 :=
  VS.read (Elt F) (VS.writes (Elt F) VS.junk (runStart c i arg2 harg2 arg3 harg3 arg4 harg4 arg5 harg5 arg6 harg6 arg7 harg7 arg8 harg8 hc1 hc2 hc3 x0 x1 x2 x3 x4).1)

theorem coverAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : ¬cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runAdd c i arg2 harg2 arg3 harg3 arg4 harg4 arg5 harg5 arg6 harg6 arg7 harg7 arg8 harg8 hc1 hc2 hc3 x0 x1 x2 x3 x4 xs).1, y ∈ pc.1.set :=
  View.cover_of_tiledL (runAdd c i arg2 harg2 arg3 harg3 arg4 harg4 arg5 harg5 arg6 harg6 arg7 harg7 arg8 harg8 hc1 hc2 hc3 x0 x1 x2 x3 x4 xs).1 S512x64.size (by sl_kernel_rfl) y

/-- What the case `k ∈ {1, 2}` leaves in the accumulator. -/
def accAdd (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : ¬cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VS.read (Elt F) (VS.writes (Elt F) VS.junk (runAdd c i arg2 harg2 arg3 harg3 arg4 harg4 arg5 harg5 arg6 harg6 arg7 harg7 arg8 harg8 hc1 hc2 hc3 x0 x1 x2 x3 x4 xs).1)

theorem coverFinishAcc (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runFinish c i arg2 harg2 arg3 harg3 arg4 harg4 arg5 harg5 arg6 harg6 arg7 harg7 arg8 harg8 hc1 hc2 hc3 x0 x1 x2 x3 x4 xs).2.1, y ∈ pc.1.set :=
  View.cover_of_tiledL (runFinish c i arg2 harg2 arg3 harg3 arg4 harg4 arg5 harg5 arg6 harg6 arg7 harg7 arg8 harg8 hc1 hc2 hc3 x0 x1 x2 x3 x4 xs).2.1 S512x64.size (by sl_kernel_rfl) y

/-- What the case `k = 3` leaves in the accumulator. -/
def accFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VS.read (Elt F) (VS.writes (Elt F) VS.junk (runFinish c i arg2 harg2 arg3 harg3 arg4 harg4 arg5 harg5 arg6 harg6 arg7 harg7 arg8 harg8 hc1 hc2 hc3 x0 x1 x2 x3 x4 xs).2.1)

theorem coverFinishOut (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) (y : S512x64.Idx) :
    ∃ pc ∈ (runFinish c i arg2 harg2 arg3 harg3 arg4 harg4 arg5 harg5 arg6 harg6 arg7 harg7 arg8 harg8 hc1 hc2 hc3 x0 x1 x2 x3 x4 xs).1, y ∈ pc.1.set :=
  View.cover_of_tiledL (runFinish c i arg2 harg2 arg3 harg3 arg4 harg4 arg5 harg5 arg6 harg6 arg7 harg7 arg8 harg8 hc1 hc2 hc3 x0 x1 x2 x3 x4 xs).1 S512x64.size (by sl_kernel_rfl) y

/-- What the case `k = 3` leaves in the output window's staging buffer. -/
def outFinish (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) : Vec F S512x64 .f32 :=
  VO5.read (Elt F) (VO5.writes (Elt F) VO5.junk (runFinish c i arg2 harg2 arg3 harg3 arg4 harg4 arg5 harg5 arg6 harg6 arg7 harg7 arg8 harg8 hc1 hc2 hc3 x0 x1 x2 x3 x4 xs).1)

/-! ## The accumulator and the output block, point by point -/

/-- The accumulator after the point at position `n`. -/
def accAt (c : Dev nD) : (n : ℕ) → n < cfg0.N → Vec F S512x64 .f32
  | 0, hn => (fun (t : Fin cfg0.N) (h0 : t.val % 4 = 0) => accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)) ⟨0, hn⟩ (Nat.zero_mod _)
  | n + 1, hn =>
    if h0 : (n + 1) % 4 = 0 then
      (fun (t : Fin cfg0.N) (h0 : t.val % 4 = 0) => accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)) ⟨n + 1, hn⟩ h0
    else if h3 : (n + 1) % 4 = 3 then
      (fun (t : Fin cfg0.N) (h3 : t.val % 4 = 3) (xs : Vec F S512x64 .f32) => accFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) xs) ⟨n + 1, hn⟩ h3 (accAt c n (Nat.lt_of_succ_lt hn))
    else
      (fun (t : Fin cfg0.N) (h0 : ¬ t.val % 4 = 0) (h3 : ¬ t.val % 4 = 3) (xs : Vec F S512x64 .f32) => accAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) xs) ⟨n + 1, hn⟩ h0 h3 (accAt c n (Nat.lt_of_succ_lt hn))

theorem accAt_start (c : Dev nD) (t : Fin cfg0.N) (h0 : t.val % 4 = 0) :
    accAt m c t.val t.isLt = accStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t) := by
  obtain ⟨n, hn⟩ := t
  cases n with
  | zero => exact rfl
  | succ n => exact (dif_pos h0).trans rfl

theorem accAt_add (c : Dev nD) (t : Fin cfg0.N) (h0 : ¬ t.val % 4 = 0) (h3 : ¬ t.val % 4 = 3) :
    accAt m c t.val t.isLt = accAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem accAt_finish (c : Dev nD) (t : Fin cfg0.N) (h3 : t.val % 4 = 3) :
    accAt m c t.val t.isLt = accFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd h3 (show ¬ (0 % 4 = 3) by decide)
  | succ n => exact (dif_neg (by dsimp only at h3; omega)).trans ((dif_pos h3).trans rfl)

/-- What the output window's staging buffer holds after point `t`: at a point with `k = 3` the block computed
    there; elsewhere the window is idle and the value is not consulted. -/
def outAt (c : Dev nD) (t : Fin cfg0.N) : Vec F S512x64 .f32 :=
  if h3 : t.val % 4 = 3 then
    outFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))
  else VO5.read (Elt F) VO5.junk

theorem outAt_finish (c : Dev nD) (t : Fin cfg0.N) (h3 : t.val % 4 = 3) :
    outAt m c t = outFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt)) :=
  dif_pos h3

/-! ## The invariant: the accumulator between points -/

/-- Before the first point the accumulator holds anything; after point `n` it holds `accAt n`. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers that are no staging buffer are the accumulator, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The proof data -/

/-- The arrays as the region finds them; after the body each input's buffer at its block, the output's at
    `outAt`; the invariant the accumulator's; nothing owed; the feature matrix's share halved between its two
    windows, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  (before_in_of m (dats m 0 c) 0 rfl (fun _ => rfl) (fun _ _ _ => rfl) (A_eq m c 0) (fun t => by rw [after0]; try rfl) (fun t d => by rw [after0]; try rfl) t d).trans (after0 m c t)
theorem before1 (c : Dev nD) (t : Fin cfg0.N) (d) : (dats m 0 c).before 1 t d = iblk m c 1 t :=
  (before_in_of m (dats m 0 c) 1 rfl (fun _ => rfl) (fun _ _ _ => rfl) (A_eq m c 1) (fun t => by rw [after1]; try rfl) (fun t d => by rw [after1]; try rfl) t d).trans (after1 m c t)
theorem before2 (c : Dev nD) (t : Fin cfg0.N) (d) : (dats m 0 c).before 2 t d = iblk m c 2 t :=
  (before_in_of m (dats m 0 c) 2 rfl (fun _ => rfl) (fun _ _ _ => rfl) (A_eq m c 2) (fun t => by rw [after2]; try rfl) (fun t d => by rw [after2]; try rfl) t d).trans (after2 m c t)
theorem before3 (c : Dev nD) (t : Fin cfg0.N) (d) : (dats m 0 c).before 3 t d = iblk m c 3 t :=
  (before_in_of m (dats m 0 c) 3 rfl (fun _ => rfl) (fun _ _ _ => rfl) (A_eq m c 3) (fun t => by rw [after3]; try rfl) (fun t d => by rw [after3]; try rfl) t d).trans (after3 m c t)
theorem before4 (c : Dev nD) (t : Fin cfg0.N) (d) : (dats m 0 c).before 4 t d = iblk m c 4 t :=
  (before_in_of m (dats m 0 c) 4 rfl (fun _ => rfl) (fun _ _ _ => rfl) (A_eq m c 4) (fun t => by rw [after4]; try rfl) (fun t d => by rw [after4]; try rfl) t d).trans (after4 m c t)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point: the inputs' buffers hold their blocks; `k` decides the case; the invariant hands the
    body the accumulator at what the point before left (at anything when `k = 0`) and takes it back at this
    point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 64 := lt_of_lt_of_eq t.isLt (show cfg0.N = 64 from N_0)
  by_cases h0 : t.val % 4 = 0
  · rw [Dat.leavesExact_idle (dats m 0 c) 5 t (idle5 t (by omega)) (noFlush5 t (by omega))]
    rw [accAt_start m c t h0]
    unfold accStart; (try dsimp only)
    have hrun := (runStart c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)).2
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (coverStart c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (coverStart c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dats m 0 c).leavesExact 5 t = owns (c : Thread nD τ) (ms5 t) fullShare ((dats m 0 c).after 5 t) from by
        unfold Dat.leavesExact; rw [live5 t h3], after5, outAt_finish m c t h3]
      rw [accAt_finish m c t h3]
      unfold outFinish accFinish; (try dsimp only)
      have hrun := (runFinish c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))).2.2
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS]
      · unfold owns; iexists _; isplitr
        swap; · iexact HS
        ipureintro; exact View.read_writes_of_cover _ _ _ _ _ (coverFinishAcc c _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFinishOut c _ _ _ _ _ _ _ _ _ _ _ _ _ _ _ _ _ _ _ _ _ _ _ _)
    · rw [Dat.leavesExact_idle (dats m 0 c) 5 t (idle5 t h3) (noFlush5 t h3)]
      rw [accAt_add m c t h0 h3]
      unfold accAdd; (try dsimp only)
      have hrun := (runAdd c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (accAt m c (t.val - 1) (Nat.lt_of_le_of_lt (Nat.sub_le _ _) t.isLt))).2
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (coverAdd c _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the feature matrix dealt between its two windows -/

theorem share0 (c : Dev nD) : (dats m 0 c).share 0 = fullShare.left := rfl
theorem share1 (c : Dev nD) : (dats m 0 c).share 1 = fullShare := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The distinct buffers behind the windows' arrays, one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_call0_v0 ∗ Φ main_v0) :=
  bigSep_eq_bigSepL_of_eq [main_arg0, main_arg1, main_arg2, main_call0_v0, main_v0] (by decide) (by decide) Φ

/-- The five distinct buffers behind the six windows' arrays, each whole at the full share, make the six arrays:
    the feature matrix's buffer splits into its two halves. -/
theorem hsplit (c : Dev nD) :
    (Pipeline.arrBufs spec0 c (V m c) : sProp 𝕄) ⊢ (dats m 0 c).arrays ((dats m 0 c).arrAt · 0) := by
  rw [show (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) from by
    unfold Dat.arrays
    exact bigSep_congr fun w _ => by rw [(arr_whole0 w).set_eq_univ]; rfl]
  unfold Pipeline.arrBufs
  rw [bigSep_W0, bigSep_arrs]
  rw [share0, share1, share2, share3, share4, share5]
  iintro ⟨H0, H1, H2, H3, H4⟩
  ihave H0' := (pointsTo_share (PosShare.mem_left_op_right fullShare)).1 $$ H0
  icases H0' with ⟨Ha, Hb⟩
  isplitl [Ha]; · iexact Ha
  isplitl [H1]; · iexact H1
  isplitl [Hb]; · iexact Hb
  isplitl [H2]; · iexact H2
  isplitl [H3]; · iexact H3
  iexact H4

/-! ## The run -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, rest_eq]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest_eq]
  iintro HS
  iexists _; iexact HS

set_option backward.isDefEq.respectTransparency.types false in
/-- Every weakly fair execution of @main terminates, and in every final state each array of the pipeline holds what
    the library computes from the proof data, every other unscoped buffer what the region found. -/
theorem run_main : θ_run defs (onTc (τ := τ) (main (F := F))) (s₀ m ρ) (Pipeline.FramePost cfgs (dats m) 0 (V m)) :=
  Pipeline.θ_run_frame_of_split cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).2 main_arg3 (by decide)).trans (V_main_arg3 m c)⟩) (run_main m ρ)

end Cert.KernelIdeal.Frame

end
-- ==== Proof.IdealPieces.lean ====
/-
  What each case of the idealized kernel's body leaves, as the body's own arithmetic.

  The runs found the contents of the accumulator and of the output block as pieces stored through whole-buffer
  rectangles; read back, a piece is its payload: the block product when the accumulator is started, the
  accumulator plus the block product when it is added to, and, at the last step, the layer's arithmetic on the
  block of rows, the two halves of the weights, the finished accumulator and the bias row.
-/
import proofs.«128215_g32341103738940_cont_8to1_b_156_19_alg».proof.Proof.IdealFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Started: the block product. -/
theorem accStart_eq (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : cond1 i) (hc2 : ¬cond2 i) (hc3 : ¬cond3 i) (x0 : Vec F S512x64 .f32) (x1 : Vec F S512x2048 .f32) (x2 : Vec F S2048x64 .f32) (x3 : Vec F S64x128 .f32) (x4 : Vec F S1x64 .f32) :
    accStart c i arg2 harg2 arg3 harg3 arg4 harg4 arg5 harg5 arg6 harg6 arg7 harg7 arg8 harg8 hc1 hc2 hc3 x0 x1 x2 x3 x4 = k0_pay2 x1 x2 := by
  unfold accStart
  rw [View.read_writes_eq_canon _ _ _ (coverStart c i arg2 harg2 arg3 harg3 arg4 harg4 arg5 harg5 arg6 harg6 arg7 harg7 arg8 harg8 hc1 hc2 hc3 x0 x1 x2 x3 x4)]
  unfold runStart
  dsimp only
  sl_unfold_words
  rw [View.canon_unit_zero hz]
  simp only [View.readAt_eq_ld, harg3.read_unread, harg4.read_unread, View.ld_unit_zero (S := S512x2048) hz, View.ld_unit_zero (S := S2048x64) hz]

/-- Added to: what it held plus the block product. -/
theorem accAdd_eq (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : ¬cond3 i) (x0 : Vec F S512x64 .f32) (x1 : Vec F S512x2048 .f32) (x2 : Vec F S2048x64 .f32) (x3 : Vec F S64x128 .f32) (x4 : Vec F S1x64 .f32) (xs : Vec F S512x64 .f32) :
    accAdd c i arg2 harg2 arg3 harg3 arg4 harg4 arg5 harg5 arg6 harg6 arg7 harg7 arg8 harg8 hc1 hc2 hc3 x0 x1 x2 x3 x4 xs = k0_pay3 x1 x2 xs := by
  unfold accAdd
  rw [View.read_writes_eq_canon _ _ _ (coverAdd c i arg2 harg2 arg3 harg3 arg4 harg4 arg5 harg5 arg6 harg6 arg7 harg7 arg8 harg8 hc1 hc2 hc3 x0 x1 x2 x3 x4 xs)]
  unfold runAdd
  dsimp only
  sl_unfold_words
  rw [View.canon_unit_zero hz]
  simp only [View.readAt_eq_ld, harg3.read_unread, harg4.read_unread, harg8.read_unread, View.ld_unit_zero (S := S512x2048) hz, View.ld_unit_zero (S := S2048x64) hz, View.ld_unit_zero (S := S512x64) hz]

/-- At the last step the accumulator is added to in the same way. -/
theorem accFinish_eq (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) :
    accFinish c i arg2 harg2 arg3 harg3 arg4 harg4 arg5 harg5 arg6 harg6 arg7 harg7 arg8 harg8 hc1 hc2 hc3 x0 x1 x2 x3 x4 xs = k0_pay3 x1 x2 xs := by
  unfold accFinish
  rw [View.read_writes_eq_canon _ _ _ (coverFinishAcc c i arg2 harg2 arg3 harg3 arg4 harg4 arg5 harg5 arg6 harg6 arg7 harg7 arg8 harg8 hc1 hc2 hc3 x0 x1 x2 x3 x4 xs)]
  unfold runFinish
  dsimp only
  sl_unfold_words
  rw [View.canon_unit_zero hz]
  simp only [View.readAt_eq_ld, harg3.read_unread, harg4.read_unread, harg8.read_unread, View.ld_unit_zero (S := S512x2048) hz, View.ld_unit_zero (S := S2048x64) hz, View.ld_unit_zero (S := S512x64) hz]

/-- The output block at the last step. -/
theorem outFinish_eq (c : Dev nD) (i : grid0.Coords)
    (arg2 : Memref sig .tc .vmem S512x64 .f32) (harg2 : arg2.IsWhole) (arg3 : Memref sig .tc .vmem S512x2048 .f32) (harg3 : arg3.IsWhole)
    (arg4 : Memref sig .tc .vmem S2048x64 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S512x64 .f32) (harg7 : arg7.IsWhole)
    (arg8 : Memref sig .tc .vmem S512x64 .f32) (harg8 : arg8.IsWhole) (hc1 : ¬cond1 i) (hc2 : cond2 i) (hc3 : cond3 i) (x0 : Vec F S512x64 .f32) (x1 : Vec F S512x2048 .f32) (x2 : Vec F S2048x64 .f32) (x3 : Vec F S64x128 .f32) (x4 : Vec F S1x64 .f32) (xs : Vec F S512x64 .f32) :
    outFinish c i arg2 harg2 arg3 harg3 arg4 harg4 arg5 harg5 arg6 harg6 arg7 harg7 arg8 harg8 hc1 hc2 hc3 x0 x1 x2 x3 x4 xs
      = k0_pay4 x0 (View.ld x3 (Rect.unit (s := S64x128) ![0, 0] S64x64.size inb_S64x128_S64x64_0_0)) (k0_pay3 x1 x2 xs)
          (View.ld x3 (Rect.unit (s := S64x128) ![0, 64] S64x64.size inb_S64x128_S64x64_0_64)) x4 := by
  unfold outFinish
  rw [View.read_writes_eq_canon _ _ _ (coverFinishOut c i arg2 harg2 arg3 harg3 arg4 harg4 arg5 harg5 arg6 harg6 arg7 harg7 arg8 harg8 hc1 hc2 hc3 x0 x1 x2 x3 x4 xs)]
  unfold runFinish
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S2048x64) hz, View.ld_unit_zero (S := S512x64) hz, View.ld_unit_zero (S := S1x64) hz]
  rw [View.readCov_unit_zero (S := S512x64) _ hz]

end Cert.KernelIdeal.Frame

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.IdealPayloads.lean ====
/-
  The idealized kernel body's arithmetic, read at an entry, on the extended reals.

  The block product at (p, j) is Σ_k a(p, k) · y(k, j) over the block's 2048 contracted positions; the
  accumulator's update adds it to what the accumulator held; the output block at (p, q) is the block of rows
  against row q of the left half of the weights, plus the accumulator against row q of the right half (both
  products contract the SECOND axes of their operands), plus the bias row's entry q, clamped below at zero.
  A change of float format is the identity here, and a cast to the same shape moves nothing.
-/
import proofs.«128215_g32341103738940_cont_8to1_b_156_19_alg».proof.Proof.Gen.KernelIdeal.Skeleton
import proofs.«128215_g32341103738940_cont_8to1_b_156_19_alg».proof.Proof.LibPlainMatmul
import proofs.«128215_g32341103738940_cont_8to1_b_156_19_alg».proof.Proof.LibRowsByRows
import Idealize.ShloMosaic.Lib.Pipeline.Value
import Idealize.ShloMosaic.Lib.Pipeline.FrameBody
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- The block product at (p, j). -/
theorem pay1_apply (v0 : Vec Ideal S512x2048 .f32) (v2 : Vec Ideal S2048x64 .f32) (p : Fin 512) (j : Fin 64) :
    k0_pay1 v0 v2 (ix2 p j) = ∑ k : Fin 2048, v0 (ix2 p k) * v2 (ix2 k j) := by
  unfold k0_pay1
  exact Cert.PlainMatmul.matmul_zero_apply Gen.dot_S512x2048_S2048x64_S512x64_1_0_0_1_n_n_wf none
    (truncf .bf16 v0 Gen.bitsLt_bf16_f32) (truncf .bf16 v2 Gen.bitsLt_bf16_f32) p j

/-- The accumulator started: the block product. -/
theorem pay2_apply (v0 : Vec Ideal S512x2048 .f32) (v2 : Vec Ideal S2048x64 .f32) (p : Fin 512) (j : Fin 64) :
    k0_pay2 v0 v2 (ix2 p j) = ∑ k : Fin 2048, v0 (ix2 p k) * v2 (ix2 k j) := by
  unfold k0_pay2
  refine (congrFun (shapeCast_self _ _) _).trans ?_
  exact pay1_apply v0 v2 p j

/-- The accumulator added to. -/
theorem pay3_apply (v0 : Vec Ideal S512x2048 .f32) (v2 : Vec Ideal S2048x64 .f32) (acc : Vec Ideal S512x64 .f32) (p : Fin 512) (j : Fin 64) :
    k0_pay3 v0 v2 acc (ix2 p j) = acc (ix2 p j) + ∑ k : Fin 2048, v0 (ix2 p k) * v2 (ix2 k j) := by
  unfold k0_pay3
  refine (congrFun (shapeCast_self _ _) _).trans ?_
  exact congrArg (fun z => acc (ix2 p j) + z) (pay1_apply v0 v2 p j)

/-- The bias row laid along the block's rows reads its entry q. -/
theorem biasRow_apply (v21 : Vec Ideal S1x64 .f32) (p : Fin 512) (q : Fin 64) :
    broadcastTo S512x64 (shapeCast S1x64 v21 Gen.shapeCasts_S1x64_S1x64) Gen.broadcasts_S1x64_S512x64 (ix2 p q) = v21 (ix2 (0 : Fin 1) q) := by
  refine (broadcastTo_apply (shapeCast S1x64 v21 Gen.shapeCasts_S1x64_S1x64) Gen.broadcasts_S1x64_S512x64 (ix2 p q) (ix2 (0 : Fin 1) q) (fun a => ?_)).trans
    (congrFun (shapeCast_self v21 _) _)
  match a with
  | ⟨0, _⟩ => show 0 = if (1 : Nat) = 1 then 0 else p.val; rw [if_pos rfl]
  | ⟨1, _⟩ => show q.val = if (64 : Nat) = 1 then 0 else q.val; rw [if_neg (by decide)]

/-- The output block at (p, q). -/
theorem pay4_apply (v14 : Vec Ideal S512x64 .f32) (v15 : Vec Ideal S64x64 .f32) (v17 : Vec Ideal S512x64 .f32) (v18 : Vec Ideal S64x64 .f32)
    (v21 : Vec Ideal S1x64 .f32) (p : Fin 512) (q : Fin 64) :
    k0_pay4 v14 v15 v17 v18 v21 (ix2 p q)
      = max (((∑ j : Fin 64, v14 (ix2 p j) * v15 (ix2 q j)) + (∑ j : Fin 64, v17 (ix2 p j) * v18 (ix2 q j))) + v21 (ix2 (0 : Fin 1) q))
          (Ideal.ofBits .f32 0x00000000#32) := by
  unfold k0_pay4
  refine congrArg (fun z => max z (Ideal.ofBits .f32 0x00000000#32)) ?_
  refine congrArg₂ (· + ·) (congrArg₂ (· + ·) ?_ ?_) ?_
  · exact Cert.RowsByRows.matmul_rowsByRows_apply Gen.dot_S512x64_S64x64_S512x64_1_1_0_0_n_n_wf none v14 v15 p q
  · exact Cert.RowsByRows.matmul_rowsByRows_apply Gen.dot_S512x64_S64x64_S512x64_1_1_0_0_n_n_wf none v17 v18 p q
  · exact biasRow_apply v21 p q

/-- The left half of the weights as the body loads it: entry (q, j) is W(q, j). -/
theorem leftHalf_apply (x3 : Vec Ideal S64x128 .f32) (q j : Fin 64) :
    View.ld x3 (Rect.unit (s := S64x128) ![0, 0] S64x64.size Gen.inb_S64x128_S64x64_0_0) (ix2 q j)
      = x3 (ix2 q (⟨j.val, by have := j.isLt; omega⟩ : Fin 128)) := by
  show x3 _ = x3 _
  refine congrArg x3 (funext fun a => Fin.ext ?_)
  match a with
  | ⟨0, _⟩ => show 0 + 1 * q.val = q.val; omega
  | ⟨1, _⟩ => show 0 + 1 * j.val = j.val; omega

/-- The right half: entry (q, j) is W(q, 64 + j). -/
theorem rightHalf_apply (x3 : Vec Ideal S64x128 .f32) (q j : Fin 64) :
    View.ld x3 (Rect.unit (s := S64x128) ![0, 64] S64x64.size Gen.inb_S64x128_S64x64_0_64) (ix2 q j)
      = x3 (ix2 q (⟨64 + j.val, by have := j.isLt; omega⟩ : Fin 128)) := by
  show x3 _ = x3 _
  refine congrArg x3 (funext fun a => Fin.ext ?_)
  match a with
  | ⟨0, _⟩ => show 0 + 1 * q.val = q.val; omega
  | ⟨1, _⟩ => show 64 + 1 * j.val = 64 + j.val; omega

end Cert.KernelIdeal.Payload

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LayerSpec.lean ====
/-
  The graph layer as one function of its four arrays, entry by entry, on the extended reals.

  With x the [8192, 64] feature matrix, adj the [8192, 8192] adjacency matrix, W the [64, 128] weights and b the
  bias, the layer's output at row p and column q is

      max( Σ_{j<64} x(p, j) · W(q, j)  +  Σ_{j<64} (adj · x)(p, j) · W(q, 64 + j)  +  b(q),  0 ),

  the self term through the left half of the weights and the neighbour sum (adj · x)(p, j) = Σ_k adj(p, k) · x(k, j)
  through the right half. Two regroupings of sums, valid in any commutative additive monoid and so at the
  infinities too, relate the two programs to it: the neighbour sum over 8192 positions is the sum of its four
  consecutive blocks of 2048 (taken one block at a time, in order); and a sum over 128 columns is the sum over the
  first 64 plus the sum over the last 64.
-/
import Idealize.ShloMosaic.PureOps.Ideal
import Idealize.ShloMosaic.Lib.ValueIdx
import proofs.«128215_g32341103738940_cont_8to1_b_156_19_alg».proof.Proof.LibSumBlocks

noncomputable section

namespace Cert.GraphLayer

open Idealize.ShloMosaic Idealize.ShloMosaic.ValueIdx Cert.Lib.SumBlocks

abbrev SX : Shape := ⟨2, ![8192, 64]⟩
abbrev SA : Shape := ⟨2, ![8192, 8192]⟩
abbrev SW : Shape := ⟨2, ![64, 128]⟩
abbrev SB : Shape := ⟨1, ![64]⟩

/-- One term of the neighbour sum: adj(p, k) · x(k, j). -/
def term (x : SX.Idx → EReal) (adj : SA.Idx → EReal) (p : Fin 8192) (j : Fin 64) (k : Fin 8192) : EReal :=
  adj (ix2 p k) * x (ix2 k j)

/-- The neighbour sum (adj · x)(p, j). -/
def nbr (x : SX.Idx → EReal) (adj : SA.Idx → EReal) (p : Fin 8192) (j : Fin 64) : EReal :=
  ∑ k : Fin 8192, term x adj p j k

/-- Block s of the neighbour sum: positions s · 2048 … s · 2048 + 2047. -/
def nbrBlock (x : SX.Idx → EReal) (adj : SA.Idx → EReal) (p : Fin 8192) (j : Fin 64) (s : ℕ) : EReal :=
  ∑ q : Fin 2048, onNat (term x adj p j) (s * 2048 + q.val)

/-- The first n blocks of the neighbour sum, added in order. -/
def nbrUpTo (x : SX.Idx → EReal) (adj : SA.Idx → EReal) (p : Fin 8192) (j : Fin 64) (n : ℕ) : EReal :=
  ∑ s ∈ Finset.range n, nbrBlock x adj p j s

/-- The neighbour sum is its four blocks. -/
theorem nbr_eq_blocks (x : SX.Idx → EReal) (adj : SA.Idx → EReal) (p : Fin 8192) (j : Fin 64) :
    nbr x adj p j = nbrUpTo x adj p j 4 :=
  sum_fin_blocks 4 2048 rfl (term x adj p j)

theorem nbrUpTo_one (x : SX.Idx → EReal) (adj : SA.Idx → EReal) (p : Fin 8192) (j : Fin 64) :
    nbrUpTo x adj p j 1 = nbrBlock x adj p j 0 := by
  unfold nbrUpTo; rw [Finset.sum_range_one]

theorem nbrUpTo_succ (x : SX.Idx → EReal) (adj : SA.Idx → EReal) (p : Fin 8192) (j : Fin 64) (n : ℕ) :
    nbrUpTo x adj p j (n + 1) = nbrUpTo x adj p j n + nbrBlock x adj p j n := by
  unfold nbrUpTo; rw [Finset.sum_range_succ]

/-- A block of the neighbour sum as a kernel's block product has it: the adjacency block's row against the
    block of feature rows. -/
theorem nbrBlock_eq (x : SX.Idx → EReal) (adj : SA.Idx → EReal) (p : Fin 8192) (j : Fin 64) (s : ℕ) (hs : s < 4)
    (l : Fin 2048 → EReal) (r : Fin 2048 → EReal)
    (hl : ∀ q : Fin 2048, l q = adj (ix2 p ⟨s * 2048 + q.val, by have := q.isLt; omega⟩))
    (hr : ∀ q : Fin 2048, r q = x (ix2 ⟨s * 2048 + q.val, by have := q.isLt; omega⟩ j)) :
    ∑ q : Fin 2048, l q * r q = nbrBlock x adj p j s := by
  unfold nbrBlock
  refine Finset.sum_congr rfl fun q _ => ?_
  rw [onNat_of_lt _ _ (by have := q.isLt; omega), hl, hr]
  rfl

/-- The layer's output at row p and column q. -/
def layerAt (x : SX.Idx → EReal) (adj : SA.Idx → EReal) (W : SW.Idx → EReal) (b : SB.Idx → EReal) (p : Fin 8192) (q : Fin 64) : EReal :=
  max ((∑ j : Fin 64, x (ix2 p j) * W (ix2 q (⟨j.val, by have := j.isLt; omega⟩ : Fin 128))
      + ∑ j : Fin 64, nbr x adj p j * W (ix2 q (⟨64 + j.val, by have := j.isLt; omega⟩ : Fin 128))) + b (ix1 q))
    (Ideal.ofBits .f32 0x00000000#32)

/-- The layer's output, as an array. -/
def layer (x : SX.Idx → EReal) (adj : SA.Idx → EReal) (W : SW.Idx → EReal) (b : SB.Idx → EReal) : SX.Idx → EReal :=
  fun i => layerAt x adj W b (i 0) (i 1)

theorem layer_apply (x : SX.Idx → EReal) (adj : SA.Idx → EReal) (W : SW.Idx → EReal) (b : SB.Idx → EReal) (p : Fin 8192) (q : Fin 64) :
    layer x adj W b (ix2 p q) = layerAt x adj W b p q := rfl

/-- A sum over 128 columns is the sum over the first 64 plus the sum over the last 64. -/
theorem sum_halves {β : Type*} [AddCommMonoid β] (f : Fin 128 → β) :
    ∑ l : Fin 128, f l = (∑ j : Fin 64, f ⟨j.val, by have := j.isLt; omega⟩) + ∑ j : Fin 64, f ⟨64 + j.val, by have := j.isLt; omega⟩ :=
  Fin.sum_univ_add (a := 64) (b := 64) f

end Cert.GraphLayer

end
-- ==== Proof.IdealValue.lean ====
/-
  The idealized kernel's output array is the layer function of its argument arrays.

  Point t = 4·i + k of the grid works on row block i (rows 512·i … 512·i + 511) and contraction block k (positions
  2048·k … 2048·k + 2047). Its adjacency block is adj at those rows and positions, its block of feature rows is x at
  those positions, and its block of the layer's own rows is x at those rows; the weights and the bias row are whole.
  By induction on the point, the accumulator after point t holds, at (p, j), the first k + 1 blocks of the neighbour
  sum (adj · x)(512·i + p, j), added in order; after a point with k = 3 that is the whole neighbour sum. The block
  stored there is therefore the layer function on row block i, it is written back exactly at those points, and the
  sixteen row blocks cover the output array.
-/
import proofs.«128215_g32341103738940_cont_8to1_b_156_19_alg».proof.Proof.IdealPieces
import proofs.«128215_g32341103738940_cont_8to1_b_156_19_alg».proof.Proof.IdealPayloads
import proofs.«128215_g32341103738940_cont_8to1_b_156_19_alg».proof.Proof.LayerSpec
import Idealize.ShloMosaic.Lib.Pipeline.Value
import Idealize.ShloMosaic.Lib.StableHlo.Run

set_option maxRecDepth 16384

noncomputable section

namespace Cert.KernelIdeal.Frame

open Cert.KernelIdeal Cert.KernelIdeal.Gen Cert.KernelIdeal.Payload Cert.GraphLayer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The printed index maps, decided over the grid -/

theorem idx_facts : ∀ t : Fin cfg0.N,
      win0_0.index t (0 : Fin 2) = t.val / 4 ∧ win0_0.index t (1 : Fin 2) = 0
    ∧ win0_1.index t (0 : Fin 2) = t.val / 4 ∧ win0_1.index t (1 : Fin 2) = t.val % 4
    ∧ win0_2.index t (0 : Fin 2) = t.val % 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

theorem t_lt (t : Fin cfg0.N) : t.val < 64 := lt_of_lt_of_eq t.isLt (show cfg0.N = 64 from N_0)

/-- Row p of point t's row block, as a row of the whole arrays. -/
def rowOf (t : Fin cfg0.N) (p : Fin 512) : Fin 8192 := ⟨t.val / 4 * 512 + p.val, by have := t_lt t; have := p.isLt; omega⟩
/-- Position k of point t's contraction block, as a position of the whole contraction. -/
def posOf (t : Fin cfg0.N) (k : Fin 2048) : Fin 8192 := ⟨t.val % 4 * 2048 + k.val, by have := k.isLt; omega⟩

/-! ## The blocks at a point -/

/-- Point t's adjacency block and its block of feature rows, as vectors. -/
abbrev blkA (c : Dev nD) (t : Fin cfg0.N) : Vec Ideal S512x2048 .f32 := iblk m c 1 t
abbrev blkX (c : Dev nD) (t : Fin cfg0.N) : Vec Ideal S2048x64 .f32 := iblk m c 2 t

theorem blk0_apply (c : Dev nD) (t : Fin cfg0.N) (p : Fin 512) (j : Fin 64) :
    (iblk m c 0 t : Vec Ideal S512x64 .f32) (ix2 p j) = (m ((c : Thread nD τ).loc main_arg0)) (ix2 (rowOf t p) j) := by
  obtain ⟨e00, e01, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 512 + 1 * p.val = t.val / 4 * 512 + p.val; omega
  | ⟨1, _⟩ => show win0_0.index t (1 : Fin 2) * 64 + 1 * j.val = j.val; omega

theorem blk1_apply (c : Dev nD) (t : Fin cfg0.N) (p : Fin 512) (k : Fin 2048) :
    (blkA m c t) (ix2 p k) = (m ((c : Thread nD τ).loc main_arg1)) (ix2 (rowOf t p) (posOf t k)) := by
  obtain ⟨-, -, e10, e11, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val / 4 * 512 + p.val; omega
  | ⟨1, _⟩ => show win0_1.index t (1 : Fin 2) * 2048 + 1 * k.val = t.val % 4 * 2048 + k.val; omega

theorem blk2_apply (c : Dev nD) (t : Fin cfg0.N) (k : Fin 2048) (j : Fin 64) :
    (blkX m c t) (ix2 k j) = (m ((c : Thread nD τ).loc main_arg0)) (ix2 (posOf t k) j) := by
  obtain ⟨-, -, -, -, e20, e21, -⟩ := idx_facts t
  show V m c main_arg0 (((cfg0.win 2).blk t).view.emb (ix2 k j)) = _
  rw [V_main_arg0]
  refine congrArg _ (funext fun a => Fin.ext ?_)
  match a with
  | ⟨0, _⟩ => show win0_2.index t (0 : Fin 2) * 2048 + 1 * k.val = t.val % 4 * 2048 + k.val; omega
  | ⟨1, _⟩ => show win0_2.index t (1 : Fin 2) * 64 + 1 * j.val = j.val; omega

theorem blk3_apply (c : Dev nD) (t : Fin cfg0.N) (q : Fin 64) (l : Fin 128) :
    (iblk m c 3 t : Vec Ideal S64x128 .f32) (ix2 q l) = (m ((c : Thread nD τ).loc main_arg2)) (ix2 q l) := by
  obtain ⟨-, -, -, -, -, -, e30, e31, -⟩ := idx_facts t
  show V m c main_arg2 (((cfg0.win 3).blk t).view.emb (ix2 q l)) = _
  rw [V_main_arg2]
  refine congrArg _ (funext fun a => Fin.ext ?_)
  match a with
  | ⟨0, _⟩ => show win0_3.index t (0 : Fin 2) * 64 + 1 * q.val = q.val; omega
  | ⟨1, _⟩ => show win0_3.index t (1 : Fin 2) * 128 + 1 * l.val = l.val; omega

/-- The bias row the host line before the region wrote: the bias vector, viewed as one row. -/
theorem brow_apply (c : Dev nD) (q : Fin 64) :
    V m c main_call0_v0 (ix2 (0 : Fin 1) q) = (m ((c : Thread nD τ).loc main_arg3)) (ix1 q) := by
  have e : (V m c main_call0_v0 : S1x64.Idx → EReal) = shapeCast S1x64 (m ((c : Thread nD τ).loc main_arg3)) Gen.shapeCasts_S64_S1x64 := by
    dsimp only [V, V0, hostOps0]; after_results; try rfl
  rw [e]
  exact shapeCast_apply _ _ (ix2 (0 : Fin 1) q) (ix1 q) (by
    rw [Shape.rowMajor_val_one, Shape.rowMajor_val_two]
    show q.val = 0 * 64 + q.val
    omega)

theorem blk4_apply (c : Dev nD) (t : Fin cfg0.N) (q : Fin 64) :
    (iblk m c 4 t : Vec Ideal S1x64 .f32) (ix2 (0 : Fin 1) q) = (m ((c : Thread nD τ).loc main_arg3)) (ix1 q) := by
  obtain ⟨-, -, -, -, -, -, -, -, e40, e41, -⟩ := idx_facts t
  show V m c main_call0_v0 (((cfg0.win 4).blk t).view.emb (ix2 (0 : Fin 1) q)) = _
  refine (congrArg (V m c main_call0_v0) (funext fun a => Fin.ext ?_)).trans (brow_apply m c q)
  match a with
  | ⟨0, _⟩ => show win0_4.index t (0 : Fin 2) * 1 + 1 * 0 = 0; omega
  | ⟨1, _⟩ => show win0_4.index t (1 : Fin 2) * 64 + 1 * q.val = q.val; omega

/-- The point's block product is one block of the neighbour sum. -/
theorem block_sum (c : Dev nD) (t : Fin cfg0.N) (p : Fin 512) (j : Fin 64) :
    (∑ k : Fin 2048, (blkA m c t) (ix2 p k) * (blkX m c t) (ix2 k j)) = nbrBlock (m ((c : Thread nD τ).loc main_arg0)) (m ((c : Thread nD τ).loc main_arg1)) (rowOf t p) j (t.val % 4) :=
  nbrBlock_eq (m ((c : Thread nD τ).loc main_arg0)) (m ((c : Thread nD τ).loc main_arg1)) (rowOf t p) j (t.val % 4) (Nat.mod_lt _ (by decide))
    (fun k => (blkA m c t) (ix2 p k)) (fun k => (blkX m c t) (ix2 k j)) (fun k => blk1_apply m c t p k) (fun k => blk2_apply m c t k j)

/-! ## The accumulator, one step at a time -/

theorem acc_start (c : Dev nD) (t : Fin cfg0.N) (h0 : t.val % 4 = 0) (p : Fin 512) (j : Fin 64) :
    accAt m c t.val t.isLt (ix2 p j) = ∑ k : Fin 2048, (blkA m c t) (ix2 p k) * (blkX m c t) (ix2 k j) := by
  refine (congrFun (accAt_start m c t h0) (ix2 p j)).trans ?_
  refine (congrFun (accStart_eq (F := Ideal) c (grid0.coords t) (ms0 t) (hs0 t) (ms1 t) (hs1 t) (ms2 t) (hs2 t) (ms3 t) (hs3 t) (ms4 t) (hs4 t) (ms5 t) (hs5 t) scM (Memref.isWhole_whole _) ((hcond1 t).mpr h0) (fun h => (hcond2 t).mp h h0) (fun h => by have := (hcond3 t).mp h; omega) (iblk m c 0 t) (iblk m c 1 t) (iblk m c 2 t) (iblk m c 3 t) (iblk m c 4 t)) (ix2 p j)).trans ?_
  exact pay2_apply (iblk m c 1 t) (iblk m c 2 t) p j

theorem acc_add (c : Dev nD) (t : Fin cfg0.N) (h0 : ¬ t.val % 4 = 0) (h3 : ¬ t.val % 4 = 3) (p : Fin 512) (j : Fin 64) :
    accAt m c t.val t.isLt (ix2 p j)
      = accAt m c (t.val - 1) (Nat.lt_of_le_of_lt (Nat.sub_le _ _) t.isLt) (ix2 p j) + ∑ k : Fin 2048, (blkA m c t) (ix2 p k) * (blkX m c t) (ix2 k j) := by
  refine (congrFun (accAt_add m c t h0 h3) (ix2 p j)).trans ?_
  refine (congrFun (accAdd_eq (F := Ideal) c (grid0.coords t) (ms0 t) (hs0 t) (ms1 t) (hs1 t) (ms2 t) (hs2 t) (ms3 t) (hs3 t) (ms4 t) (hs4 t) (ms5 t) (hs5 t) scM (Memref.isWhole_whole _) (fun h => h0 ((hcond1 t).mp h)) ((hcond2 t).mpr h0) (fun h => h3 ((hcond3 t).mp h)) (iblk m c 0 t) (iblk m c 1 t) (iblk m c 2 t) (iblk m c 3 t) (iblk m c 4 t) (accAt m c (t.val - 1) (Nat.lt_of_le_of_lt (Nat.sub_le _ _) t.isLt))) (ix2 p j)).trans ?_
  exact pay3_apply (iblk m c 1 t) (iblk m c 2 t) (accAt m c (t.val - 1) (Nat.lt_of_le_of_lt (Nat.sub_le _ _) t.isLt)) p j

theorem acc_finish (c : Dev nD) (t : Fin cfg0.N) (h3 : t.val % 4 = 3) (p : Fin 512) (j : Fin 64) :
    accAt m c t.val t.isLt (ix2 p j)
      = accAt m c (t.val - 1) (Nat.lt_of_le_of_lt (Nat.sub_le _ _) t.isLt) (ix2 p j) + ∑ k : Fin 2048, (blkA m c t) (ix2 p k) * (blkX m c t) (ix2 k j) := by
  refine (congrFun (accAt_finish m c t h3) (ix2 p j)).trans ?_
  refine (congrFun (accFinish_eq (F := Ideal) c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))) (ix2 p j)).trans ?_
  exact pay3_apply (iblk m c 1 t) (iblk m c 2 t) (accAt m c (t.val - 1) (Nat.lt_of_le_of_lt (Nat.sub_le _ _) t.isLt)) p j

/-- After the point at position n the accumulator holds the first n mod 4 + 1 blocks of the neighbour sums of
    the point's rows. -/
theorem accAt_apply (c : Dev nD) : ∀ (n : ℕ) (hn : n < cfg0.N) (p : Fin 512) (j : Fin 64),
    accAt m c n hn (ix2 p j) = nbrUpTo (m ((c : Thread nD τ).loc main_arg0)) (m ((c : Thread nD τ).loc main_arg1)) (rowOf ⟨n, hn⟩ p) j (n % 4 + 1) := by
  intro n
  induction n with
  | zero =>
    intro hn p j
    refine (acc_start m c ⟨0, hn⟩ rfl p j).trans ?_
    rw [block_sum]
    exact (nbrUpTo_one _ _ _ _).symm
  | succ n ih =>
    intro hn p j
    have hrow : ¬ (n + 1) % 4 = 0 → rowOf ⟨n, Nat.lt_of_succ_lt hn⟩ p = rowOf ⟨n + 1, hn⟩ p := fun h =>
      Fin.ext (by show n / 4 * 512 + p.val = (n + 1) / 4 * 512 + p.val; omega)
    by_cases h0 : (n + 1) % 4 = 0
    · refine (acc_start m c ⟨n + 1, hn⟩ h0 p j).trans ?_
      rw [block_sum]
      show nbrBlock _ _ _ j ((n + 1) % 4) = nbrUpTo _ _ _ j ((n + 1) % 4 + 1)
      rw [h0]
      exact (nbrUpTo_one _ _ _ _).symm
    · have hk : n % 4 + 1 = (n + 1) % 4 := by omega
      by_cases h3 : (n + 1) % 4 = 3
      · refine (acc_finish m c ⟨n + 1, hn⟩ h3 p j).trans ?_
        rw [block_sum]
        show accAt m c n _ (ix2 p j) + nbrBlock _ _ _ j ((n + 1) % 4) = nbrUpTo _ _ _ j ((n + 1) % 4 + 1)
        rw [ih (Nat.lt_of_succ_lt hn) p j, hrow h0, hk, nbrUpTo_succ]
      · refine (acc_add m c ⟨n + 1, hn⟩ h0 h3 p j).trans ?_
        rw [block_sum]
        show accAt m c n _ (ix2 p j) + nbrBlock _ _ _ j ((n + 1) % 4) = nbrUpTo _ _ _ j ((n + 1) % 4 + 1)
        rw [ih (Nat.lt_of_succ_lt hn) p j, hrow h0, hk, nbrUpTo_succ]

/-- At a point with k = 3 the finished accumulator is the whole neighbour sum. -/
theorem acc_final (c : Dev nD) (t : Fin cfg0.N) (h3 : t.val % 4 = 3) (p : Fin 512) (j : Fin 64) :
    k0_pay3 (iblk m c 1 t) (iblk m c 2 t) (accAt m c (t.val - 1) (Nat.lt_of_le_of_lt (Nat.sub_le _ _) t.isLt)) (ix2 p j) = nbr (m ((c : Thread nD τ).loc main_arg0)) (m ((c : Thread nD τ).loc main_arg1)) (rowOf t p) j := by
  refine (congrFun ((accAt_finish m c t h3).trans
    (accFinish_eq (F := Ideal) c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt)))) (ix2 p j)).symm.trans ?_
  refine (accAt_apply m c t.val t.isLt p j).trans ?_
  rw [h3]
  exact (nbr_eq_blocks _ _ _ _).symm

/-! ## The output block -/

/-- The block stored at a point with k = 3 is the layer function on the point's rows. -/
theorem out_apply (c : Dev nD) (t : Fin cfg0.N) (h3 : t.val % 4 = 3) (p : Fin 512) (q : Fin 64) :
    outAt m c t (ix2 p q) = layerAt (m ((c : Thread nD τ).loc main_arg0)) (m ((c : Thread nD τ).loc main_arg1)) (m ((c : Thread nD τ).loc main_arg2)) (m ((c : Thread nD τ).loc main_arg3)) (rowOf t p) q := by
  refine (congrFun (outAt_finish m c t h3) (ix2 p q)).trans ?_
  refine (congrFun (outFinish_eq (F := Ideal) c (grid0.coords t) (ms0 t) (hs0 t) (ms1 t) (hs1 t) (ms2 t) (hs2 t) (ms3 t) (hs3 t) (ms4 t) (hs4 t) (ms5 t) (hs5 t) scM (Memref.isWhole_whole _) (fun h => by have := (hcond1 t).mp h; omega) ((hcond2 t).mpr (by omega)) ((hcond3 t).mpr h3) (iblk m c 0 t) (iblk m c 1 t) (iblk m c 2 t) (iblk m c 3 t) (iblk m c 4 t) (accAt m c (t.val - 1) (Nat.lt_of_le_of_lt (Nat.sub_le _ _) t.isLt))) (ix2 p q)).trans ?_
  refine (pay4_apply (iblk m c 0 t)
    (View.ld (iblk m c 3 t : Vec Ideal S64x128 .f32) (Rect.unit (s := S64x128) ![0, 0] S64x64.size Gen.inb_S64x128_S64x64_0_0))
    (k0_pay3 (iblk m c 1 t) (iblk m c 2 t) (accAt m c (t.val - 1) (Nat.lt_of_le_of_lt (Nat.sub_le _ _) t.isLt)))
    (View.ld (iblk m c 3 t : Vec Ideal S64x128 .f32) (Rect.unit (s := S64x128) ![0, 64] S64x64.size Gen.inb_S64x128_S64x64_0_64))
    (iblk m c 4 t) p q).trans ?_
  unfold layerAt
  refine congrArg (fun z => max z (Ideal.ofBits .f32 0x00000000#32)) ?_
  refine congrArg₂ (· + ·) (congrArg₂ (· + ·) (Finset.sum_congr rfl fun j _ => ?_) (Finset.sum_congr rfl fun j _ => ?_)) ?_
  · exact congrArg₂ (· * ·) (blk0_apply m c t p j) ((leftHalf_apply (iblk m c 3 t) q j).trans (blk3_apply m c t q _))
  · exact congrArg₂ (· * ·) (acc_final m c t h3 p j) ((rightHalf_apply (iblk m c 3 t) q j).trans (blk3_apply m c t q _))
  · exact blk4_apply m c t q

/-- What a point with k = 3 writes back is its block of the layer function. -/
theorem flushed_eq (c : Dev nD) (t : Fin cfg0.N) (hf : (cfg0.win 5).flush t = true) :
    (dats m 0 c).flushed 5 t = ((cfg0.win 5).blk t).view.read (Elt Ideal) (layer (m ((c : Thread nD τ).loc main_arg0)) (m ((c : Thread nD τ).loc main_arg1)) (m ((c : Thread nD τ).loc main_arg2)) (m ((c : Thread nD τ).loc main_arg3))) := by
  have h3 : t.val % 4 = 3 := (flush0_5 t).mp hf
  obtain ⟨-, -, -, -, -, -, -, -, -, -, e50, e51⟩ := idx_facts t
  show (cfg0.win 5).cut (grid0.coords t) ((dats m 0 c).after 5 t) = _
  rw [after5]
  funext y
  obtain ⟨p, q, rfl⟩ : ∃ (p : Fin 512) (q : Fin 64), y = ix2 p q := ⟨y 0, y 1, eq_ix2 y⟩
  refine (out_apply m c t h3 p q).trans ?_
  show _ = layer _ _ _ _ (((cfg0.win 5).blk t).view.emb (ix2 p q))
  have hi : ((cfg0.win 5).blk t).view.emb (ix2 p q) = ix2 (rowOf t p) q := funext fun a => Fin.ext (by
    match a with
    | ⟨0, _⟩ => show win0_5.index t (0 : Fin 2) * 512 + 1 * p.val = t.val / 4 * 512 + p.val; omega
    | ⟨1, _⟩ => show win0_5.index t (1 : Fin 2) * 64 + 1 * q.val = q.val; omega)
  rw [hi, layer_apply]

/-! ## The row blocks cover the output array -/

theorem mem_blk5 (t : Fin cfg0.N) (i : S8192x64.Idx) :
    i ∈ ((cfg0.win 5).blk t).view.set ↔ ∀ a : Fin 2, win0_5.index t a * S512x64.size a ≤ (i a).val ∧ (i a).val < win0_5.index t a * S512x64.size a + S512x64.size a := by
  show i ∈ ((View.whole main_v0).slice (win0_5.rect t)).set ↔ _
  rw [View.set_slice_whole, Rect.mem_set_unit]
  exact Iff.rfl

/-- Row r is written back at the point of its row block with k = 3. -/
theorem cover5 (i : S8192x64.Idx) : ∃ t : Fin cfg0.N, (cfg0.win 5).flush t = true ∧ i ∈ ((cfg0.win 5).blk t).view.set := by
  have hi0 : (i 0).val < 8192 := idx2_lt0 i
  have hi1 : (i 1).val < 64 := idx2_lt1 i
  have hlt : (i 0).val / 512 * 4 + 3 < cfg0.N := lt_of_lt_of_eq (by omega) (show (64 : ℕ) = cfg0.N from N_0.symm)
  refine ⟨⟨(i 0).val / 512 * 4 + 3, hlt⟩, (flush0_5 _).mpr (by show ((i 0).val / 512 * 4 + 3) % 4 = 3; omega), ?_⟩
  obtain ⟨-, -, -, -, -, -, -, -, -, -, e50, e51⟩ := idx_facts ⟨(i 0).val / 512 * 4 + 3, hlt⟩
  have e50' : win0_5.index ⟨(i 0).val / 512 * 4 + 3, hlt⟩ (0 : Fin 2) = ((i 0).val / 512 * 4 + 3) / 4 := e50
  rw [mem_blk5]
  intro a
  match a with
  | ⟨0, _⟩ =>
    show win0_5.index ⟨(i 0).val / 512 * 4 + 3, hlt⟩ (0 : Fin 2) * 512 ≤ (i 0).val ∧ (i 0).val < win0_5.index ⟨(i 0).val / 512 * 4 + 3, hlt⟩ (0 : Fin 2) * 512 + 512
    omega
  | ⟨1, _⟩ =>
    show win0_5.index ⟨(i 0).val / 512 * 4 + 3, hlt⟩ (1 : Fin 2) * 64 ≤ (i 1).val ∧ (i 1).val < win0_5.index ⟨(i 0).val / 512 * 4 + 3, hlt⟩ (1 : Fin 2) * 64 + 64
    omega

/-! ## The output array after the run -/

theorem final5 (c : Dev nD) : (dats m 0 c).arrAt 5 cfg0.N = layer (m ((c : Thread nD τ).loc main_arg0)) (m ((c : Thread nD τ).loc main_arg1)) (m ((c : Thread nD τ).loc main_arg2)) (m ((c : Thread nD τ).loc main_arg3)) :=
  (dats m 0 c).arrAt_eq_of_cover 5 (layer (m ((c : Thread nD τ).loc main_arg0)) (m ((c : Thread nD τ).loc main_arg1)) (m ((c : Thread nD τ).loc main_arg2)) (m ((c : Thread nD τ).loc main_arg3))) (fun t hf => flushed_eq m c t hf) cover5

/-- Every weakly fair execution of the idealized kernel terminates with its result array at the layer function of
    its argument arrays, and those unchanged. -/
theorem run_value : θ_run defs (onTc (τ := τ) (main (F := Ideal))) ⟨m, fun _ => 0, ρ⟩ (fun r => ∀ c : Dev nD,
      r.2.mem ((c.tc : Thread nD τ).loc main_v0) = layer (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (final5 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).2 main_arg3 (by decide)).trans (V_main_arg3 m c)⟩) (run_main m ρ)

end Cert.KernelIdeal.Frame

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.RefEntry.lean ====
/-
  The reference computes the layer function.

  The reference forms the neighbour sums adj · x by one whole contraction, joins x and adj · x along the columns
  into an [8192, 128] matrix, contracts it with the transposed weights, adds the bias laid along the rows and
  clamps below at zero. Entry (p, q) is therefore max( Σ_{l<128} [x | adj · x](p, l) · W(q, l) + b(q), 0 ): the sum over
  the 128 joined columns splits into the first 64 (the columns of x) and the last 64 (the columns of adj · x).
-/
import proofs.«128215_g32341103738940_cont_8to1_b_156_19_alg».proof.Proof.Gen.ReferenceIdeal.Read
import proofs.«128215_g32341103738940_cont_8to1_b_156_19_alg».proof.Proof.LayerSpec
import proofs.«128215_g32341103738940_cont_8to1_b_156_19_alg».proof.Proof.LibJoinAxis

set_option maxRecDepth 16384

noncomputable section

namespace Cert.ReferenceIdeal.Spec

open Cert.ReferenceIdeal Cert.ReferenceIdeal.Gen Cert.ReferenceIdeal.Read
open Idealize.ShloMosaic Idealize.ShloMosaic.ValueIdx Cert.GraphLayer

/-- The reference's whole contraction is the neighbour sum. -/
theorem nbr_apply (x0 : SX.Idx → EReal) (x1 : SA.Idx → EReal) (p : Fin 8192) (j : Fin 64) :
    val_main_v0 (F := Ideal) x0 x1 (ix2 p j) = nbr x0 x1 p j := by
  rw [val_main_v0_apply]
  unfold nbr term
  refine Finset.sum_congr rfl fun k _ => ?_
  have el : lidx_main_v0 (ix2 p j) k = ix2 p k := funext fun a => Fin.ext (by match a with | ⟨0, _⟩ => rfl | ⟨1, _⟩ => rfl)
  have er : ridx_main_v0 (ix2 p j) k = ix2 k j := funext fun a => Fin.ext (by match a with | ⟨0, _⟩ => rfl | ⟨1, _⟩ => rfl)
  rw [el, er]

/-- The family of the two joined pieces. -/
def pieces (x0 v0 : SX.Idx → EReal) : Fin 2 → SX.Idx → EReal := fun n => match n with | 0 => x0 | 1 => v0

/-- The first 64 columns of the joined matrix are the columns of x. -/
theorem join_left (x0 v0 : SX.Idx → EReal) (p : Fin 8192) (j : Fin 64) :
    concatenate S8192x128 1 [⟨S8192x64, x0⟩, ⟨S8192x64, v0⟩] Gen.concatenates_S8192x64_S8192x64_S8192x128_d1
        (ix2 p (⟨j.val, by have := j.isLt; omega⟩ : Fin 128)) = x0 (ix2 p j) :=
  Cert.LibJoinAxis.joinCols_apply (A := 8192) (K := 64) (N := 2) (W := 128) (pieces x0 v0) Gen.concatenates_S8192x64_S8192x64_S8192x128_d1
    p ⟨j.val, by have := j.isLt; omega⟩ (0 : Fin 2) (by show j.val / 64 = 0; have := j.isLt; omega) j (by show j.val = j.val % 64; have := j.isLt; omega)

/-- The last 64 are the columns of the second piece. -/
theorem join_right (x0 v0 : SX.Idx → EReal) (p : Fin 8192) (j : Fin 64) :
    concatenate S8192x128 1 [⟨S8192x64, x0⟩, ⟨S8192x64, v0⟩] Gen.concatenates_S8192x64_S8192x64_S8192x128_d1
        (ix2 p (⟨64 + j.val, by have := j.isLt; omega⟩ : Fin 128)) = v0 (ix2 p j) :=
  Cert.LibJoinAxis.joinCols_apply (A := 8192) (K := 64) (N := 2) (W := 128) (pieces x0 v0) Gen.concatenates_S8192x64_S8192x64_S8192x128_d1
    p ⟨64 + j.val, by have := j.isLt; omega⟩ (1 : Fin 2) (by show (64 + j.val) / 64 = 1; have := j.isLt; omega) j (by show j.val = (64 + j.val) % 64; have := j.isLt; omega)

/-- Entry (p, q) of the reference's result is the layer's. -/
theorem ref_apply (x0 : SX.Idx → EReal) (x1 : SA.Idx → EReal) (x2 : SW.Idx → EReal) (x3 : SB.Idx → EReal) (p : Fin 8192) (q : Fin 64) :
    val_main_v7 (F := Ideal) x0 x1 x2 x3 (ix2 p q) = layerAt x0 x1 x2 x3 p q := by
  rw [val_main_v7_apply, val_main_v6_apply, val_main_v3_apply, val_main_v5_apply, val_main_v4_apply, val_main_call0_v0_apply,
    val_main_call0_cst_apply]
  have hb : x3 (idx_main_v4 (idx_main_v5 (ix2 p q))) = x3 (ix1 q) :=
    congrArg x3 (funext fun a => Fin.ext (by match a with | ⟨0, _⟩ => rfl))
  have hs : (∑ k : Fin 128, val_main_v1 (F := Ideal) x0 x1 (lidx_main_v3 (ix2 p q) k) * val_main_v2 (F := Ideal) x2 (ridx_main_v3 (ix2 p q) k))
      = (∑ j : Fin 64, x0 (ix2 p j) * x2 (ix2 q (⟨j.val, by have := j.isLt; omega⟩ : Fin 128)))
        + ∑ j : Fin 64, nbr x0 x1 p j * x2 (ix2 q (⟨64 + j.val, by have := j.isLt; omega⟩ : Fin 128)) := by
    rw [sum_halves]
    refine congrArg₂ (· + ·) (Finset.sum_congr rfl fun j _ => ?_) (Finset.sum_congr rfl fun j _ => ?_)
    · have el : lidx_main_v3 (ix2 p q) (⟨j.val, by have := j.isLt; omega⟩ : Fin 128) = ix2 p (⟨j.val, by have := j.isLt; omega⟩ : Fin 128) :=
        funext fun a => Fin.ext (by match a with | ⟨0, _⟩ => rfl | ⟨1, _⟩ => rfl)
      have er : idx_main_v2 (ridx_main_v3 (ix2 p q) (⟨j.val, by have := j.isLt; omega⟩ : Fin 128)) = ix2 q (⟨j.val, by have := j.isLt; omega⟩ : Fin 128) :=
        funext fun a => Fin.ext (by match a with | ⟨0, _⟩ => rfl | ⟨1, _⟩ => rfl)
      rw [val_main_v2_apply, el, er]
      unfold val_main_v1
      rw [join_left]
    · have el : lidx_main_v3 (ix2 p q) (⟨64 + j.val, by have := j.isLt; omega⟩ : Fin 128) = ix2 p (⟨64 + j.val, by have := j.isLt; omega⟩ : Fin 128) :=
        funext fun a => Fin.ext (by match a with | ⟨0, _⟩ => rfl | ⟨1, _⟩ => rfl)
      have er : idx_main_v2 (ridx_main_v3 (ix2 p q) (⟨64 + j.val, by have := j.isLt; omega⟩ : Fin 128)) = ix2 q (⟨64 + j.val, by have := j.isLt; omega⟩ : Fin 128) :=
        funext fun a => Fin.ext (by match a with | ⟨0, _⟩ => rfl | ⟨1, _⟩ => rfl)
      rw [val_main_v2_apply, el, er]
      unfold val_main_v1
      rw [join_right, nbr_apply]
  rw [hs, hb]
  rfl

/-- The reference's result is the layer function of its arguments. -/
theorem ref_is_layer (x0 : SX.Idx → EReal) (x1 : SA.Idx → EReal) (x2 : SW.Idx → EReal) (x3 : SB.Idx → EReal) :
    val_main_v7 (F := Ideal) x0 x1 x2 x3 = layer x0 x1 x2 x3 := by
  funext i
  obtain ⟨p, q, rfl⟩ : ∃ (p : Fin 8192) (q : Fin 64), i = ix2 p q := ⟨i 0, i 1, eq_ix2 i⟩
  exact ref_apply x0 x1 x2 x3 p q

end Cert.ReferenceIdeal.Spec

end
-- ==== Proof.lean ====
/-
  A graph-convolution layer: relu( [x | adj · x] · Wᵀ + b ), fused in one kernel against its plain reference.

  The kernel never forms the joined matrix [x | adj · x]: it splits the weights into their left and right halves and
  computes x · W₁ᵀ + (adj · x) · W₂ᵀ + b, and it forms the neighbour sums adj · x one block of 2048 contracted positions at
  a time, in an accumulator it carries across four grid points per block of 512 rows. On the extended reals both
  programs compute one function of the four arrays (Proof/LayerSpec.lean): the two differ only in how finite sums
  are grouped, which addition's associativity and commutativity settle, at the infinities too — so the finiteness
  of the inputs is never used.

  The kernel's two windows on the feature matrix share that array, so its buffer is dealt between them, half of
  the share each (Proof/IdealFrame.lean, Proof/BitsFrame.lean: the frames of the idealized kernel and of the kernel as
  printed, the same text at the two instances). The kernel's result array is read off its frame run
  (Proof/IdealValue.lean), the reference's off its run (Proof/RefEntry.lean). The idealization rewrote nothing, so
  there is nothing to preserve.
-/
import proofs.«128215_g32341103738940_cont_8to1_b_156_19_alg».proof.Defs
import proofs.«128215_g32341103738940_cont_8to1_b_156_19_alg».proof.Proof.BitsFrame
import proofs.«128215_g32341103738940_cont_8to1_b_156_19_alg».proof.Proof.IdealValue
import proofs.«128215_g32341103738940_cont_8to1_b_156_19_alg».proof.Proof.RefEntry
import proofs.«128215_g32341103738940_cont_8to1_b_156_19_alg».proof.Proof.Gen.Kernel
import proofs.«128215_g32341103738940_cont_8to1_b_156_19_alg».proof.Proof.Gen.KernelIdeal
import proofs.«128215_g32341103738940_cont_8to1_b_156_19_alg».proof.Proof.Gen.ReferenceIdeal
import proofs.«128215_g32341103738940_cont_8to1_b_156_19_alg».proof.Proof.Gen.Pre_finite_inputs
import Idealize.ShloMosaic.Adequacy
import Idealize.ShloMosaic.Init

noncomputable section

namespace Cert.Proof

open Idealize.ShloMosaic Idealize.SL.Sem Cert.GraphLayer

/-- The kernel as printed runs and leaves its arguments unchanged. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer function of the (agreeing) argument arrays. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Spec.ref_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
